-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x128 : Shape := ⟨2, ![512, 128]⟩
abbrev S512x1 : Shape := ⟨2, ![512, 1]⟩
abbrev S1x512 : Shape := ⟨2, ![1, 512]⟩
abbrev S512 : Shape := ⟨1, ![512]⟩
abbrev S512x512 : Shape := ⟨2, ![512, 512]⟩
abbrev S1 : Shape := ⟨1, ![1]⟩
abbrev S_ : Shape := ⟨0, ![]⟩

abbrev nBuf : Space → Nat
  | .hbm => 22
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S1x1, .f32⟩
  | .hbm, ⟨5, _⟩ => ⟨S1x1, .f32⟩
  | .hbm, ⟨6, _⟩ => ⟨S8192x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | .local _ .vmem, ⟨9, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  reduces_S512x1_S1 : S512x1.Reduces [0] S1
  shapeCasts_S1_S1x1 : S1.ShapeCasts S1x1
  shapeCasts_S1x1_S1x1 : S1x1.ShapeCasts S1x1
  reducesTo_S8192x128_S_d0_1 : S8192x128.ReducesTo [0, 1] S_
  h_S_ : 0 < S_.numel
  shapeCasts_S1x1_S_ : S1x1.ShapeCasts S_
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x128, .f32⟩
  | .hbm, ⟨8, _⟩ => ⟨S_, .f32⟩
  | .hbm, ⟨9, _⟩ => ⟨S8192, .f32⟩
  | .hbm, ⟨10, _⟩ => ⟨S8192x8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_call1_v0 : Ref sig .tc := ⟨.hbm, 44, rfl⟩
abbrev main_call1_v1 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  reducesTo_S8192x128_S_d0_1 : S8192x128.ReducesTo [0, 1] S_
  h_S_ : 0 < S_.numel
  reducesTo_S8192x128_S8192_d1 : S8192x128.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.KernelRuns.lean ====
/-
  The kernel body run once per control case, on any whole staging memrefs.

  The body branches on "this is grid point (0, 0)": there it first overwrites both one-cell accumulators with zero
  (case A); at every other point it does not (case B). In either case it then loads the two feature blocks and the two
  label blocks, and adds to each accumulator the sum over the 512×512 tile of pairs. Each run is stated as a triple:
  from the four input buffers at given contents and the two accumulators (at anything in case A, at given running
  contents in case B) the body reaches its continuation with the inputs as they were and each accumulator overwritten by
  a list of stored pieces, which the run itself finds. Also here: the buffers' contents when the region is entered (the
  two label reshapes applied to the launch contents), a window's block at a grid point read off those contents, and the
  branch condition decided over the 256 grid points (it holds at point 0 only).
-/
import proofs.«161955_j76416058131342_1_alg».proof.Proof.Gen.Kernel.Launch
import proofs.«161955_j76416058131342_1_alg».proof.Proof.Gen.Kernel.Skeleton
import proofs.«161955_j76416058131342_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- Core `c`'s buffers when the region is entered: the launch contents after the two reshapes of the labels. -/
abbrev V0 (c : Dev nD) : Valuation τ sig (Elt F) := StableHlo.after (List.flatten [hostOps0 (F := F)]) (fun b => m (c, b))

/-- The same, by TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch condition -/

/-- "Both grid coordinates are zero", as the body computes it. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

/-! ## The staging memrefs at a point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-- One staging buffer of each accumulator, through which its contents are stated. -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view

/-! ## The two runs -/

set_option maxHeartbeats 4000000 in
/-- Case A (grid point (0,0)): the accumulators hold anything before the body; the run finds the pieces its stores leave in each. -/
noncomputable def kernelRunA (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hc : cond0 i)
    (x0 x1 : Vec F S512x128 .f32) (x2 : Vec F S512x1 .i32) (x3 : Vec F S1x512 .i32) :
    Σ' (L4 : List (View.Piece (Elt F) S1x1 .f32)), { L5 : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__pairwise_kernel i arg2 harg2 arg3 harg3 arg4 harg4 arg5 harg5 arg6 harg6 arg7 harg7) K } := by
  refine ⟨?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

set_option maxHeartbeats 4000000 in
/-- Case B (every other grid point): the accumulators hold the running contents `xo4`, `xo5` before the body. -/
noncomputable def kernelRunB (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hc : ¬cond0 i)
    (x0 x1 : Vec F S512x128 .f32) (x2 : Vec F S512x1 .i32) (x3 : Vec F S1x512 .i32) (xo4 xo5 : Vec F S1x1 .f32) :
    Σ' (L4 : List (View.Piece (Elt F) S1x1 .f32)), { L5 : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__pairwise_kernel i arg2 harg2 arg3 harg3 arg4 harg4 arg5 harg5 arg6 harg6 arg7 harg7) K } := by
  refine ⟨?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.Kernel.Hand

end
-- ==== Proof.KernelBody.lean ====
/-
  What the two accumulators hold after each grid point, the pipeline's proof data, and the body obligation.

  After the body at grid point 0 each accumulator holds what case A's stores leave (zero, then zero plus the first tile's
  sum); after the body at a later point it holds what case B's stores leave over what the point before left, because the
  accumulators' one-cell blocks are written back only after the last point. The four input windows hold their blocks at
  every point, fetched there or not. The two windows on the feature array each hold half of its share.
-/
import proofs.«161955_j76416058131342_1_alg».proof.Proof.KernelRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators -/

/-- Case A's pieces for the first accumulator cover its one cell. -/
theorem coverA4 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) (y : S1x1.Idx) :
    ∃ pc ∈ (kernelRunA c i arg2 harg2 arg3 harg3 arg4 harg4 arg5 harg5 arg6 harg6 arg7 harg7 hc x0 x1 x2 x3).1, y ∈ pc.1.set :=
  View.cover_of_tiledL (kernelRunA c i arg2 harg2 arg3 harg3 arg4 harg4 arg5 harg5 arg6 harg6 arg7 harg7 hc x0 x1 x2 x3).1 S1x1.size (by sl_kernel_rfl) y

theorem coverA5 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) (y : S1x1.Idx) :
    ∃ pc ∈ (kernelRunA c i arg2 harg2 arg3 harg3 arg4 harg4 arg5 harg5 arg6 harg6 arg7 harg7 hc x0 x1 x2 x3).2.1, y ∈ pc.1.set :=
  View.cover_of_tiledL (kernelRunA c i arg2 harg2 arg3 harg3 arg4 harg4 arg5 harg5 arg6 harg6 arg7 harg7 hc x0 x1 x2 x3).2.1 S1x1.size (by sl_kernel_rfl) y

theorem coverB4 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) (y : S1x1.Idx) :
    ∃ pc ∈ (kernelRunB c i arg2 harg2 arg3 harg3 arg4 harg4 arg5 harg5 arg6 harg6 arg7 harg7 hc x0 x1 x2 x3 xo4 xo5).1, y ∈ pc.1.set :=
  View.cover_of_tiledL (kernelRunB c i arg2 harg2 arg3 harg3 arg4 harg4 arg5 harg5 arg6 harg6 arg7 harg7 hc x0 x1 x2 x3 xo4 xo5).1 S1x1.size (by sl_kernel_rfl) y

theorem coverB5 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) (y : S1x1.Idx) :
    ∃ pc ∈ (kernelRunB c i arg2 harg2 arg3 harg3 arg4 harg4 arg5 harg5 arg6 harg6 arg7 harg7 hc x0 x1 x2 x3 xo4 xo5).2.1, y ∈ pc.1.set :=
  View.cover_of_tiledL (kernelRunB c i arg2 harg2 arg3 harg3 arg4 harg4 arg5 harg5 arg6 harg6 arg7 harg7 hc x0 x1 x2 x3 xo4 xo5).2.1 S1x1.size (by sl_kernel_rfl) y

/-- What case A leaves in the two accumulators: its pieces read back. -/
def outA4 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) : Vec F S1x1 .f32 :=
  VO4.read (Elt F) (VO4.writes (Elt F) VO4.junk (kernelRunA c i arg2 harg2 arg3 harg3 arg4 harg4 arg5 harg5 arg6 harg6 arg7 harg7 hc x0 x1 x2 x3).1)
def outA5 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) : Vec F S1x1 .f32 :=
  VO5.read (Elt F) (VO5.writes (Elt F) VO5.junk (kernelRunA c i arg2 harg2 arg3 harg3 arg4 harg4 arg5 harg5 arg6 harg6 arg7 harg7 hc x0 x1 x2 x3).2.1)
/-- What case B leaves in them, over the running contents. -/
def outB4 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) : Vec F S1x1 .f32 :=
  VO4.read (Elt F) (VO4.writes (Elt F) VO4.junk (kernelRunB c i arg2 harg2 arg3 harg3 arg4 harg4 arg5 harg5 arg6 harg6 arg7 harg7 hc x0 x1 x2 x3 xo4 xo5).1)
def outB5 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) : Vec F S1x1 .f32 :=
  VO5.read (Elt F) (VO5.writes (Elt F) VO5.junk (kernelRunB c i arg2 harg2 arg3 harg3 arg4 harg4 arg5 harg5 arg6 harg6 arg7 harg7 hc x0 x1 x2 x3 xo4 xo5).2.1)

/-! ## The accumulation, point by point -/

/-- What the two accumulators hold after the body at position `n`. -/
def outsAt (c : Dev nD) : (n : ℕ) → n < cfg0.N → Vec F S1x1 .f32 × Vec F S1x1 .f32
  | 0, hn =>
    (outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr rfl) (iblk m c 0 ⟨0, hn⟩) (iblk m c 1 ⟨0, hn⟩) (iblk m c 2 ⟨0, hn⟩) (iblk m c 3 ⟨0, hn⟩),
     outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr rfl) (iblk m c 0 ⟨0, hn⟩) (iblk m c 1 ⟨0, hn⟩) (iblk m c 2 ⟨0, hn⟩) (iblk m c 3 ⟨0, hn⟩))
  | n + 1, hn =>
    (outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩)
        (outsAt c n (Nat.lt_of_succ_lt hn)).1 (outsAt c n (Nat.lt_of_succ_lt hn)).2,
     outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩)
        (outsAt c n (Nat.lt_of_succ_lt hn)).1 (outsAt c n (Nat.lt_of_succ_lt hn)).2)

/-- At the first point: case A. -/
theorem outsAt_A (c : Dev nD) (t : Fin cfg0.N) (h0 : t.val = 0) :
    outsAt m c t.val t.isLt
      = (outA4 c (grid0.coords t) (ms0 t) (hs0 t) (ms1 t) (hs1 t) (ms2 t) (hs2 t) (ms3 t) (hs3 t) (ms4 t) (hs4 t) (ms5 t) (hs5 t) ((hcond0 t).mpr h0) (iblk m c 0 t) (iblk m c 1 t) (iblk m c 2 t) (iblk m c 3 t),
         outA5 c (grid0.coords t) (ms0 t) (hs0 t) (ms1 t) (hs1 t) (ms2 t) (hs2 t) (ms3 t) (hs3 t) (ms4 t) (hs4 t) (ms5 t) (hs5 t) ((hcond0 t).mpr h0) (iblk m c 0 t) (iblk m c 1 t) (iblk m c 2 t) (iblk m c 3 t)) := by
  obtain ⟨n, hn⟩ := t
  cases n with
  | zero => exact rfl
  | succ n => exact absurd h0 (Nat.succ_ne_zero n)

/-- At a later point: case B over what the point before left. -/
theorem outsAt_B (c : Dev nD) (t : Fin cfg0.N) (h0 : ¬t.val = 0) :
    outsAt m c t.val t.isLt
      = (outB4 c (grid0.coords t) (ms0 t) (hs0 t) (ms1 t) (hs1 t) (ms2 t) (hs2 t) (ms3 t) (hs3 t) (ms4 t) (hs4 t) (ms5 t) (hs5 t) (fun h => h0 ((hcond0 t).mp h)) (iblk m c 0 t) (iblk m c 1 t) (iblk m c 2 t) (iblk m c 3 t)
            (outsAt m c (t.val - 1) (Nat.lt_of_le_of_lt (Nat.sub_le _ _) t.isLt)).1 (outsAt m c (t.val - 1) (Nat.lt_of_le_of_lt (Nat.sub_le _ _) t.isLt)).2,
         outB5 c (grid0.coords t) (ms0 t) (hs0 t) (ms1 t) (hs1 t) (ms2 t) (hs2 t) (ms3 t) (hs3 t) (ms4 t) (hs4 t) (ms5 t) (hs5 t) (fun h => h0 ((hcond0 t).mp h)) (iblk m c 0 t) (iblk m c 1 t) (iblk m c 2 t) (iblk m c 3 t)
            (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data on core `c`: the arrays as the region finds them; after the body each input's buffer at its block and
    the accumulators at `outsAt`; the class's invariant; nothing owed; the feature array's share dealt in two halves to
    the two windows on it, the other input arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- After the first point an accumulator's buffer holds what the body left at the point before: it is written back
    only after the last point. -/
theorem before4_B (c : Dev nD) (t : Fin cfg0.N) (h0 : ¬t.val = 0) (d) :
    (dats m 0 c).before 4 t d = (outsAt m c (t.val - 1) (Nat.lt_of_le_of_lt (Nat.sub_le _ _) t.isLt)).1 := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dats]
theorem before5_B (c : Dev nD) (t : Fin cfg0.N) (h0 : ¬t.val = 0) (d) :
    (dats m 0 c).before 5 t d = (outsAt m c (t.val - 1) (Nat.lt_of_le_of_lt (Nat.sub_le _ _) t.isLt)).2 := by
  have hN : t.val < 256 := lt_of_lt_of_eq t.isLt (show cfg0.N = 256 from N_0)
  rw [Dat.before_out_kept _ 5 rfl t h0 (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the point is the first or not; at a later point the
    accumulators hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val = 0
  · rw [outsAt_A m c t h0]
    dsimp only
    unfold outA4 outA5
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ ((hcond0 t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 c _ _ _ _ _ _ _ _ _ _ _ _ _ _ _ _ _ _)
    · unfold owns; iexists _; isplitr
      swap; · iexact H5
      ipureintro; exact View.read_writes_of_cover _ _ _ _ _ (coverA5 c _ _ _ _ _ _ _ _ _ _ _ _ _ _ _ _ _ _)
  · rw [outsAt_B m c t h0]
    dsimp only
    simp only [before4_B m c t h0, before5_B m c t h0]
    unfold outB4 outB5
    iintro ⟨HΦ, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ (fun h => h0 ((hcond0 t).mp h)) (iblk m c 0 t) (iblk m c 1 t) (iblk m c 2 t) (iblk m c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 c _ _ _ _ _ _ _ _ _ _ _ _ _ _ _ _ _ _ _ _)
    · unfold owns; iexists _; isplitr
      swap; · iexact H5
      ipureintro; exact View.read_writes_of_cover _ _ _ _ _ (coverB5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelLaunch.lean ====
/-
  The run of the whole program: the two label reshapes, the kernel region, the sixteen host operations after it.

  At the region's exit the two accumulators' arrays hold what the last grid point left (their one-cell blocks are written
  back once, after the last point), every input array holds what it held at entry, and the host operations after the
  region compute the loss from the accumulators and the feature matrix. The feature array is handed to the pipeline
  through two windows, each holding half of its share; the halves are rejoined at the exit.
-/
import proofs.«161955_j76416058131342_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor

/-- @main is the two reshapes, the region, then the sixteen later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The contents at the region's exit and at the program's end -/

open Classical in
/-- The buffers' contents when the region is left: as at entry, but for the two accumulators' arrays. -/
def Wexit (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

/-- The buffers' contents at the program's end: the later operations applied to the exit contents. -/
def Wfin (c : Dev nD) : Valuation τ sig (Elt F) := StableHlo.after (hostOps1 (F := F)) (Wexit m c)

theorem Wexit_v2_0 (c : Dev nD) : Wexit m c (Proc.devRef .tc main_v2_0) = (dats m 0 c).arrAt 4 cfg0.N := by
  unfold Wexit
  rw [Function.update_of_ne (StableHlo.devRef_ne_of_ne (by decide)), Function.update_self]
theorem Wexit_v2_1 (c : Dev nD) : Wexit m c (Proc.devRef .tc main_v2_1) = (dats m 0 c).arrAt 5 cfg0.N := by
  unfold Wexit
  rw [Function.update_self]
theorem Wexit_of_ne (c : Dev nD) (b : Ref sig .tc) (h4 : b ≠ main_v2_0) (h5 : b ≠ main_v2_1) :
    Wexit m c (Proc.devRef .tc b) = V m c b := by
  unfold Wexit
  rw [Function.update_of_ne (StableHlo.devRef_ne_of_ne h5), Function.update_of_ne (StableHlo.devRef_ne_of_ne h4)]

/-- Every array of the pipeline ends the region at the exit contents. -/
theorem arrAt_exit (c : Dev nD) (w : Fin cfg0.W) :
    (dats m 0 c).arrAt w cfg0.N = Wexit m c (Proc.devRef .tc (Pipeline.arrRef spec0 w)) := by
  match w with
  | ⟨0, _⟩ => exact (((dats m 0 c).arrAt_in 0 rfl _).trans (A_eq m c 0)).trans (Wexit_of_ne m c main_arg0 (by decide) (by decide)).symm
  | ⟨1, _⟩ => exact (((dats m 0 c).arrAt_in 1 rfl _).trans (A_eq m c 1)).trans (Wexit_of_ne m c main_arg0 (by decide) (by decide)).symm
  | ⟨2, _⟩ => exact (((dats m 0 c).arrAt_in 2 rfl _).trans (A_eq m c 2)).trans (Wexit_of_ne m c main_v0 (by decide) (by decide)).symm
  | ⟨3, _⟩ => exact (((dats m 0 c).arrAt_in 3 rfl _).trans (A_eq m c 3)).trans (Wexit_of_ne m c main_v1 (by decide) (by decide)).symm
  | ⟨4, _⟩ => exact (Wexit_v2_0 m c).symm
  | ⟨5, _⟩ => exact (Wexit_v2_1 m c).symm

/-! ## The run -/

/-- What the run establishes: every array of the pipeline at the library's final contents, every other unscoped
    buffer at the contents after the later operations. -/
def RunPost (r : PUnit × MemSt nD τ sig (Elt F)) : Prop :=
  ∀ c : Dev nD, (∀ w, r.2.mem (((cfgs 0).spec w).arr.view.loc (c.tc : Thread nD τ)) = (dats m 0 c).arrAt w (cfgs 0).N)
    ∧ ∀ b ∈ Pipeline.restRefs sig spec0, r.2.mem ((c.tc : Thread nD τ).loc b) = Wfin m c (Proc.devRef .tc b)

set_option backward.isDefEq.respectTransparency.types false in
/-- The run, given the two facts about the shared feature array: its share dealt to the two windows at entry, and the
    later operations run from the exit. -/
theorem run_main_of
    (hsplit : ∀ c, (Pipeline.arrBufs spec0 c (V m c) : sProp 𝕄) ⊢ (dats m 0 c).arrays ((dats m 0 c).arrAt · 0))
    (htail : ∀ (c : Dev nD) (Q' : PUnit → sProp 𝕄),
      iprop((iprop((dats m 0 c).arrays ((dats m 0 c).arrAt · cfg0.N)
              ∗ Pipeline.unscopedRest spec0 c (fun b => Wfin m c (Proc.devRef .tc b))) -∗ Q' ⟨⟩)
          ∗ boundary (c.tc : Thread nD τ) ∗ (dats m 0 c).arrays ((dats m 0 c).arrAt · cfg0.N)
          ∗ Pipeline.unscopedRest spec0 c (fun b => Wexit m c (Proc.devRef .tc b)))
        ⊢ wp frame (wpE (Pipeline.defs (fun q => (cfgs q).toPCfg (Val := Elt F)) (defs₀ (F := F))) (Variants.lift Variants.none) (c.tc : Thread nD τ) none) Set.univ
            (Pipeline.chain [StableHlo.seq (hostOps1 (F := F))]) Q') :
    θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      have e : (Pipeline.unscopedRest spec0 c (V m c) : sProp 𝕄) = Pipeline.unscopedRest spec0 c (fun b => Wexit m c (Proc.devRef .tc b)) := by
        unfold Pipeline.unscopedRest
        exact bigSep_congr fun b hb => by
          dsimp only
          rw [Wexit_of_ne m c b
            (fun h => (Finset.mem_sdiff.mp hb).2 (Finset.mem_image.mpr ⟨4, Finset.mem_univ _, h.symm⟩))
            (fun h => (Finset.mem_sdiff.mp hb).2 (Finset.mem_image.mpr ⟨5, Finset.mem_univ _, h.symm⟩))]
      rw [e]
      exact htail c Q')
    (QY := fun c s => ∀ b ∈ Pipeline.restRefsP sig Pipeline.Prefetch.none spec0, s.mem ((c.tc : Thread nD τ).loc b) = Wfin m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wfin m c (Proc.devRef .tc b)) s')
      isplitl [HU] <;> iassumption)
    (hQ := fun s h c => ⟨(h c).1, fun b hb => (h c).2.2 b
      (Finset.mem_sdiff.mpr ⟨hb, fun hk => by obtain ⟨k, -, -⟩ := Finset.mem_image.mp hk; exact k.elim0⟩)⟩)

end Cert.Kernel.Hand

end
-- ==== Proof.KernelShare.lean ====
import proofs.«161955_j76416058131342_1_alg».proof.Proof.Gen.Kernel.Launch
import Idealize.ShloMosaic.Lib.Pipeline.FrameSuffix
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # The arrays of a launch whose first two windows read one array

Windows 0 and 1 both read the feature array; the launch deals its full share to them as two halves,
every other window's array is held whole, and after the region the halves are rejoined for the
host operations that follow, which write no array. -/

/-- The distinct arrays behind the six windows: the feature array (windows 0 and 1), the two label
    arrays (windows 2, 3) and the two results (windows 4, 5). -/
theorem arrRefs_eq : Finset.univ.image (Pipeline.arrRef spec0) = [main_arg0, main_v0, main_v1, main_v2_0, main_v2_1].toFinset := by decide

/-- The buffers behind the arrays as a chain of five whole points-tos. -/
theorem arrBufs_chain (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_v0) ↦{fullShare} V main_v0)
          ∗ (((c.tc : Thread nD τ).loc main_v1) ↦{fullShare} V main_v1) ∗ (((c.tc : Thread nD τ).loc main_v2_0) ↦{fullShare} V main_v2_0)
          ∗ (((c.tc : Thread nD τ).loc main_v2_1) ↦{fullShare} V main_v2_1)) := by
  unfold Pipeline.arrBufs
  exact bigSep_eq_bigSepL_of_eq [main_arg0, main_v0, main_v1, main_v2_0, main_v2_1] arrRefs_eq (by decide) _

/-- The windows' arrays as a chain of six points-tos: the feature array twice, at the two shares the
    first two windows hold it at; every other array whole. -/
theorem arrays_chain (c : Dev nD) (dat : Dat τ (Elt F) Unit ℕ (UR sig nD τ) ℕ cfg0 c)
    (Fa : (w : Fin cfg0.W) → Buf (Elt F) ((cfg0.win w).arr.view.loc (c.tc : Thread nD τ))) :
    (dat.arrays Fa : sProp 𝕄)
      = iprop((((c.tc : Thread nD τ).loc main_arg0) ↦{dat.q 0} Fa 0) ∗ (((c.tc : Thread nD τ).loc main_arg0) ↦{dat.q 1} Fa 1)
          ∗ (((c.tc : Thread nD τ).loc main_v0) ↦{dat.q 2} Fa 2) ∗ (((c.tc : Thread nD τ).loc main_v1) ↦{dat.q 3} Fa 3)
          ∗ (((c.tc : Thread nD τ).loc main_v2_0) ↦{fullShare} Fa 4) ∗ (((c.tc : Thread nD τ).loc main_v2_1) ↦{fullShare} Fa 5)) := by
  unfold Dat.arrays
  -- windows 0 and 1 are on one array: one rewriting serves both
  rw [bigSep_W0, (arr_whole0 0).set_eq_univ, (arr_whole0 2).set_eq_univ, (arr_whole0 3).set_eq_univ,
    (arr_whole0 4).set_eq_univ, (arr_whole0 5).set_eq_univ]
  rfl

/-- L1. The feature array's full share dealt as two halves to the two windows on it; every other array whole. -/
theorem arrays_of_arrBufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (Fa : (w : Fin cfg0.W) → Buf (Elt F) ((cfg0.win w).arr.view.loc (c.tc : Thread nD τ)))
    (hF : ∀ w, Fa w = V (Pipeline.arrRef spec0 w)) :
    (Pipeline.arrBufs spec0 c V : sProp 𝕄) ⊢ dat.arrays Fa := by
  rw [arrBufs_chain, arrays_chain, hq0, hq1, hq2, hq3, hF 0, hF 1, hF 2, hF 3, hF 4, hF 5]
  iintro ⟨H0, H2, H3, H4, H5⟩
  ihave H0 := (pointsTo_share (PosShare.mem_left_op_right fullShare)).1 $$ H0
  icases H0 with ⟨H0a, H0b⟩
  isplitl [H0a]; · iexact H0a
  isplitl [H0b]; · iexact H0b
  isplitl [H2]; · iexact H2
  isplitl [H3]; · iexact H3
  isplitl [H4]; · iexact H4
  iexact H5

/-- The converse of L1: the two halves of the feature array rejoined. -/
theorem arrBufs_of_arrays (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (Fa : (w : Fin cfg0.W) → Buf (Elt F) ((cfg0.win w).arr.view.loc (c.tc : Thread nD τ)))
    (hF : ∀ w, Fa w = V (Pipeline.arrRef spec0 w)) :
    dat.arrays Fa ⊢ (Pipeline.arrBufs spec0 c V : sProp 𝕄) := by
  rw [arrBufs_chain, arrays_chain, hq0, hq1, hq2, hq3, hF 0, hF 1, hF 2, hF 3, hF 4, hF 5]
  iintro ⟨H0a, H0b, H2, H3, H4, H5⟩
  ihave H0 := (pointsTo_share (PosShare.mem_left_op_right fullShare)).2 $$ [H0a H0b]
  · isplitl [H0a]; · iexact H0a
    iexact H0b
  isplitl [H0]; · iexact H0
  isplitl [H2]; · iexact H2
  isplitl [H3]; · iexact H3
  isplitl [H4]; · iexact H4
  iexact H5

/-! ## The host operations after the region -/

/-- All the unscoped buffers held at a valuation: the buffers behind the arrays and the rest. -/
theorem held_ucRefs (c : Dev nD) (W : Valuation τ sig (Elt F)) :
    (StableHlo.held (c.tc : Thread nD τ) (Pipeline.ucRefs τ sig) W : sProp 𝕄)
      = iprop((Pipeline.arrBufs spec0 c (fun b => W (Proc.devRef .tc b)) : sProp 𝕄)
          ∗ Pipeline.unscopedRest spec0 c (fun b => W (Proc.devRef .tc b))) := by
  rw [← Pipeline.unscopedBufs_held (Ix := Unit) (Name := ℕ) (U := UR sig nD τ) (Lvl := ℕ) c W]
  exact Pipeline.PerCore.unscopedBufs_split₀ (fun _ _ => cfg0) (0 : Fin 1) c winFacts₀0.arr_unscoped _

/-- The operations after the region touch unscoped buffers only. -/
theorem hostOps1_uc : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- They allocate nothing. -/
theorem hostOps1_fresh : ∀ ops ∈ ([hostOps1] : List (List (HloOp τ sig (Elt F)))), ∀ op ∈ ops, op.fresh = ∅ := by
  intro ops hops op hop
  simp only [List.mem_cons, List.mem_nil_iff, or_false] at hops
  rcases hops with rfl
  have h : (hostOps1 : List (HloOp τ sig (Elt F))).Forall fun op => op.fresh = ∅ := by
    simp only [List.Forall]; repeat' constructor
  exact (List.forall_iff_forall_mem.mp h) op hop

/-- And write no array of the pipeline: each writes its own result, which is no array. -/
theorem hostOps1_keeps (Wv : Valuation τ sig (Elt F)) (w : Fin 6) :
    StableHlo.after (hostOps1 (F := F)) Wv (Proc.devRef .tc (Pipeline.arrRef spec0 w)) = Wv (Proc.devRef .tc (Pipeline.arrRef spec0 w)) := by
  refine StableHlo.after_of_forall_not_mem _ _ fun op hop => ?_
  simp only [hostOps1, List.mem_cons, List.mem_nil_iff, or_false] at hop
  rcases hop with rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton]
    exact StableHlo.devRef_ne_of_ne (by revert w; decide)

set_option backward.isDefEq.respectTransparency.types false in
/-- L2. The host operations after the region, run from the region's exit. -/
theorem tail_after (𝒱₀ : Variants) (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Wv : Valuation τ sig (Elt F))
    (Fa : (w : Fin cfg0.W) → Buf (Elt F) ((cfg0.win w).arr.view.loc (c.tc : Thread nD τ)))
    (hF : ∀ w, Fa w = Wv (Proc.devRef .tc (Pipeline.arrRef spec0 w)))
    (Q' : PUnit → sProp 𝕄) :
    iprop((iprop(dat.arrays Fa ∗ Pipeline.unscopedRest spec0 c (fun b => StableHlo.after (hostOps1 (F := F)) Wv (Proc.devRef .tc b))) -∗ Q' ⟨⟩)
        ∗ boundary (c.tc : Thread nD τ) ∗ dat.arrays Fa ∗ Pipeline.unscopedRest spec0 c (fun b => Wv (Proc.devRef .tc b)))
      ⊢ wp frame (wpE (Pipeline.defs (fun q => (cfgs q).toPCfg (Val := Elt F)) (defs₀ (F := F))) (Variants.lift 𝒱₀) (c.tc : Thread nD τ) none) Set.univ
          (Pipeline.chain [StableHlo.seq (hostOps1 (F := F))]) Q' := by
  -- the arrays and the rest, rejoined, are all the unscoped buffers at the exit contents
  have hin : iprop(dat.arrays Fa ∗ Pipeline.unscopedRest spec0 c (fun b => Wv (Proc.devRef .tc b)))
      ⊢ (StableHlo.held (c.tc : Thread nD τ) (Pipeline.ucRefs τ sig) Wv : sProp 𝕄) := by
    rw [held_ucRefs]
    exact sep_mono (arrBufs_of_arrays c dat hq0 hq1 hq2 hq3 (fun b => Wv (Proc.devRef .tc b)) Fa hF) .rfl
  -- and after the operations, which write no array, they are dealt back
  have hout : (StableHlo.held (c.tc : Thread nD τ) (Pipeline.ucRefs τ sig) (StableHlo.after (hostOps1 (F := F)) Wv) : sProp 𝕄)
      ⊢ iprop(dat.arrays Fa ∗ Pipeline.unscopedRest spec0 c (fun b => StableHlo.after (hostOps1 (F := F)) Wv (Proc.devRef .tc b))) := by
    rw [held_ucRefs]
    exact sep_mono (arrays_of_arrBufs c dat hq0 hq1 hq2 hq3 (fun b => StableHlo.after (hostOps1 (F := F)) Wv (Proc.devRef .tc b)) Fa
      (fun w => (hF w).trans (hostOps1_keeps Wv w).symm)) .rfl
  have hrun := Pipeline.wp_seqs_then (Ix := Unit) (Name := ℕ) (U := UR sig nD τ) (Lvl := ℕ)
    (fun q => (cfgs q).toPCfg (Val := Elt F)) (defs₀ (F := F)) 𝒱₀ c (Pipeline.ucRefs τ sig) [] (K := Q')
    [hostOps1 (F := F)] hostOps1_uc hostOps1_fresh Wv
  rw [List.flatten_cons, List.flatten_nil, List.append_nil, List.map_cons, List.map_nil, List.append_nil, Pipeline.chain_nil, wp_pure] at hrun
  iintro ⟨Hk, Hb, HA, HR⟩
  ihave HH := hin $$ [HA HR]
  · isplitl [HA]; · iexact HA
    iexact HR
  iapply hrun $$ [Hb HH]
  · isplitl [Hb]; · iexact Hb
    iexact HH
  iintro ⟨Hb, HH⟩
  imodintro
  iapply Hk
  iapply hout
  iexact HH

end Cert.Kernel.Hand
end
-- ==== Proof.KernelFrame.lean ====
/-
  The program's run and its frame: every weakly fair execution terminates, nothing faults, and the two argument arrays end
  as they were launched.

  The feature array is read by the kernel through two windows and is never written; the labels are read by the two
  reshapes before the region and by nothing after it. The run below also names the contents of every other buffer at
  the end, for the value claim.
-/
import proofs.«161955_j76416058131342_1_alg».proof.Proof.KernelLaunch
import proofs.«161955_j76416058131342_1_alg».proof.Proof.KernelShare

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: every array of the pipeline at its final contents, every other unscoped buffer at the contents after the
    later host operations. -/
theorem run_main : θ_run defs (onTc (τ := τ) (main (F := F))) (s₀ m ρ) (RunPost m) :=
  run_main_of m ρ
    (fun c => arrays_of_arrBufs c (dats m 0 c) rfl rfl rfl rfl (V m c) _ (fun w => A_eq m c w))
    (fun c Q' => tail_after Variants.none c (dats m 0 c) rfl rfl rfl rfl (Wexit m c) _ (fun w => arrAt_exit m c w) Q')

/-- No host operation before the region writes the feature array or the labels. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation after the region writes the labels. -/
theorem Wfin_main_arg1 (c : Dev nD) : Wfin m c (Proc.devRef .tc main_arg1) = m ((c : Thread nD τ).loc main_arg1) := by
  unfold Wfin
  rw [StableHlo.after_of_forall_not_mem (b := Proc.devRef .tc main_arg1) _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide))),
    Wexit_of_ne m c main_arg1 (by decide) (by decide)]
  exact entry_main_arg1 m c

/-- The run read at the argument arrays and at the result. -/
theorem run_args : θ_run defs (onTc (τ := τ) (main (F := F))) ⟨m, fun _ => 0, ρ⟩ (fun r => ∀ c : Dev nD,
      r.2.mem ((c.tc : Thread nD τ).loc main_v13) = Wfin m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v13 (Pipeline.mem_restRefs_of main_v13 (by decide) (by decide)),
     ((h c).1 0).trans ((((dats m 0 c).arrAt_in 0 rfl _).trans (A_eq m c 0)).trans (entry_main_arg0 m c)),
     ((h c).2 main_arg1 (Pipeline.mem_restRefs_of main_arg1 (by decide) (by decide))).trans (Wfin_main_arg1 m c)⟩)
    (run_main m ρ)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_args m ρ)

end Cert.Kernel.Hand

end
-- ==== Proof.KernelIdealRuns.lean ====
/-
  The kernel body run once per control case, on any whole staging memrefs.

  The body branches on "this is grid point (0, 0)": there it first overwrites both one-cell accumulators with zero
  (case A); at every other point it does not (case B). In either case it then loads the two feature blocks and the two
  label blocks, and adds to each accumulator the sum over the 512×512 tile of pairs. Each run is stated as a triple:
  from the four input buffers at given contents and the two accumulators (at anything in case A, at given running
  contents in case B) the body reaches its continuation with the inputs as they were and each accumulator overwritten by
  a list of stored pieces, which the run itself finds. Also here: the buffers' contents when the region is entered (the
  two label reshapes applied to the launch contents), a window's block at a grid point read off those contents, and the
  branch condition decided over the 256 grid points (it holds at point 0 only).
-/
import proofs.«161955_j76416058131342_1_alg».proof.Proof.Gen.KernelIdeal.Launch
import proofs.«161955_j76416058131342_1_alg».proof.Proof.Gen.KernelIdeal.Skeleton
import proofs.«161955_j76416058131342_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- Core `c`'s buffers when the region is entered: the launch contents after the two reshapes of the labels. -/
abbrev V0 (c : Dev nD) : Valuation τ sig (Elt F) := StableHlo.after (List.flatten [hostOps0 (F := F)]) (fun b => m (c, b))

/-- The same, by TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch condition -/

/-- "Both grid coordinates are zero", as the body computes it. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

/-! ## The staging memrefs at a point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-- One staging buffer of each accumulator, through which its contents are stated. -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view

/-! ## The two runs -/

set_option maxHeartbeats 4000000 in
/-- Case A (grid point (0,0)): the accumulators hold anything before the body; the run finds the pieces its stores leave in each. -/
noncomputable def kernelRunA (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hc : cond0 i)
    (x0 x1 : Vec F S512x128 .f32) (x2 : Vec F S512x1 .i32) (x3 : Vec F S1x512 .i32) :
    Σ' (L4 : List (View.Piece (Elt F) S1x1 .f32)), { L5 : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__pairwise_kernel i arg2 harg2 arg3 harg3 arg4 harg4 arg5 harg5 arg6 harg6 arg7 harg7) K } := by
  refine ⟨?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

set_option maxHeartbeats 4000000 in
/-- Case B (every other grid point): the accumulators hold the running contents `xo4`, `xo5` before the body. -/
noncomputable def kernelRunB (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hc : ¬cond0 i)
    (x0 x1 : Vec F S512x128 .f32) (x2 : Vec F S512x1 .i32) (x3 : Vec F S1x512 .i32) (xo4 xo5 : Vec F S1x1 .f32) :
    Σ' (L4 : List (View.Piece (Elt F) S1x1 .f32)), { L5 : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__pairwise_kernel i arg2 harg2 arg3 harg3 arg4 harg4 arg5 harg5 arg6 harg6 arg7 harg7) K } := by
  refine ⟨?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.KernelIdeal.Hand

end
-- ==== Proof.KernelIdealBody.lean ====
/-
  What the two accumulators hold after each grid point, the pipeline's proof data, and the body obligation.

  After the body at grid point 0 each accumulator holds what case A's stores leave (zero, then zero plus the first tile's
  sum); after the body at a later point it holds what case B's stores leave over what the point before left, because the
  accumulators' one-cell blocks are written back only after the last point. The four input windows hold their blocks at
  every point, fetched there or not. The two windows on the feature array each hold half of its share.
-/
import proofs.«161955_j76416058131342_1_alg».proof.Proof.KernelIdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators -/

/-- Case A's pieces for the first accumulator cover its one cell. -/
theorem coverA4 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) (y : S1x1.Idx) :
    ∃ pc ∈ (kernelRunA c i arg2 harg2 arg3 harg3 arg4 harg4 arg5 harg5 arg6 harg6 arg7 harg7 hc x0 x1 x2 x3).1, y ∈ pc.1.set :=
  View.cover_of_tiledL (kernelRunA c i arg2 harg2 arg3 harg3 arg4 harg4 arg5 harg5 arg6 harg6 arg7 harg7 hc x0 x1 x2 x3).1 S1x1.size (by sl_kernel_rfl) y

theorem coverA5 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) (y : S1x1.Idx) :
    ∃ pc ∈ (kernelRunA c i arg2 harg2 arg3 harg3 arg4 harg4 arg5 harg5 arg6 harg6 arg7 harg7 hc x0 x1 x2 x3).2.1, y ∈ pc.1.set :=
  View.cover_of_tiledL (kernelRunA c i arg2 harg2 arg3 harg3 arg4 harg4 arg5 harg5 arg6 harg6 arg7 harg7 hc x0 x1 x2 x3).2.1 S1x1.size (by sl_kernel_rfl) y

theorem coverB4 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) (y : S1x1.Idx) :
    ∃ pc ∈ (kernelRunB c i arg2 harg2 arg3 harg3 arg4 harg4 arg5 harg5 arg6 harg6 arg7 harg7 hc x0 x1 x2 x3 xo4 xo5).1, y ∈ pc.1.set :=
  View.cover_of_tiledL (kernelRunB c i arg2 harg2 arg3 harg3 arg4 harg4 arg5 harg5 arg6 harg6 arg7 harg7 hc x0 x1 x2 x3 xo4 xo5).1 S1x1.size (by sl_kernel_rfl) y

theorem coverB5 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) (y : S1x1.Idx) :
    ∃ pc ∈ (kernelRunB c i arg2 harg2 arg3 harg3 arg4 harg4 arg5 harg5 arg6 harg6 arg7 harg7 hc x0 x1 x2 x3 xo4 xo5).2.1, y ∈ pc.1.set :=
  View.cover_of_tiledL (kernelRunB c i arg2 harg2 arg3 harg3 arg4 harg4 arg5 harg5 arg6 harg6 arg7 harg7 hc x0 x1 x2 x3 xo4 xo5).2.1 S1x1.size (by sl_kernel_rfl) y

/-- What case A leaves in the two accumulators: its pieces read back. -/
def outA4 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) : Vec F S1x1 .f32 :=
  VO4.read (Elt F) (VO4.writes (Elt F) VO4.junk (kernelRunA c i arg2 harg2 arg3 harg3 arg4 harg4 arg5 harg5 arg6 harg6 arg7 harg7 hc x0 x1 x2 x3).1)
def outA5 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) : Vec F S1x1 .f32 :=
  VO5.read (Elt F) (VO5.writes (Elt F) VO5.junk (kernelRunA c i arg2 harg2 arg3 harg3 arg4 harg4 arg5 harg5 arg6 harg6 arg7 harg7 hc x0 x1 x2 x3).2.1)
/-- What case B leaves in them, over the running contents. -/
def outB4 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) : Vec F S1x1 .f32 :=
  VO4.read (Elt F) (VO4.writes (Elt F) VO4.junk (kernelRunB c i arg2 harg2 arg3 harg3 arg4 harg4 arg5 harg5 arg6 harg6 arg7 harg7 hc x0 x1 x2 x3 xo4 xo5).1)
def outB5 (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) : Vec F S1x1 .f32 :=
  VO5.read (Elt F) (VO5.writes (Elt F) VO5.junk (kernelRunB c i arg2 harg2 arg3 harg3 arg4 harg4 arg5 harg5 arg6 harg6 arg7 harg7 hc x0 x1 x2 x3 xo4 xo5).2.1)

/-! ## The accumulation, point by point -/

/-- What the two accumulators hold after the body at position `n`. -/
def outsAt (c : Dev nD) : (n : ℕ) → n < cfg0.N → Vec F S1x1 .f32 × Vec F S1x1 .f32
  | 0, hn =>
    (outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr rfl) (iblk m c 0 ⟨0, hn⟩) (iblk m c 1 ⟨0, hn⟩) (iblk m c 2 ⟨0, hn⟩) (iblk m c 3 ⟨0, hn⟩),
     outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr rfl) (iblk m c 0 ⟨0, hn⟩) (iblk m c 1 ⟨0, hn⟩) (iblk m c 2 ⟨0, hn⟩) (iblk m c 3 ⟨0, hn⟩))
  | n + 1, hn =>
    (outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩)
        (outsAt c n (Nat.lt_of_succ_lt hn)).1 (outsAt c n (Nat.lt_of_succ_lt hn)).2,
     outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩)
        (outsAt c n (Nat.lt_of_succ_lt hn)).1 (outsAt c n (Nat.lt_of_succ_lt hn)).2)

/-- At the first point: case A. -/
theorem outsAt_A (c : Dev nD) (t : Fin cfg0.N) (h0 : t.val = 0) :
    outsAt m c t.val t.isLt
      = (outA4 c (grid0.coords t) (ms0 t) (hs0 t) (ms1 t) (hs1 t) (ms2 t) (hs2 t) (ms3 t) (hs3 t) (ms4 t) (hs4 t) (ms5 t) (hs5 t) ((hcond0 t).mpr h0) (iblk m c 0 t) (iblk m c 1 t) (iblk m c 2 t) (iblk m c 3 t),
         outA5 c (grid0.coords t) (ms0 t) (hs0 t) (ms1 t) (hs1 t) (ms2 t) (hs2 t) (ms3 t) (hs3 t) (ms4 t) (hs4 t) (ms5 t) (hs5 t) ((hcond0 t).mpr h0) (iblk m c 0 t) (iblk m c 1 t) (iblk m c 2 t) (iblk m c 3 t)) := by
  obtain ⟨n, hn⟩ := t
  cases n with
  | zero => exact rfl
  | succ n => exact absurd h0 (Nat.succ_ne_zero n)

/-- At a later point: case B over what the point before left. -/
theorem outsAt_B (c : Dev nD) (t : Fin cfg0.N) (h0 : ¬t.val = 0) :
    outsAt m c t.val t.isLt
      = (outB4 c (grid0.coords t) (ms0 t) (hs0 t) (ms1 t) (hs1 t) (ms2 t) (hs2 t) (ms3 t) (hs3 t) (ms4 t) (hs4 t) (ms5 t) (hs5 t) (fun h => h0 ((hcond0 t).mp h)) (iblk m c 0 t) (iblk m c 1 t) (iblk m c 2 t) (iblk m c 3 t)
            (outsAt m c (t.val - 1) (Nat.lt_of_le_of_lt (Nat.sub_le _ _) t.isLt)).1 (outsAt m c (t.val - 1) (Nat.lt_of_le_of_lt (Nat.sub_le _ _) t.isLt)).2,
         outB5 c (grid0.coords t) (ms0 t) (hs0 t) (ms1 t) (hs1 t) (ms2 t) (hs2 t) (ms3 t) (hs3 t) (ms4 t) (hs4 t) (ms5 t) (hs5 t) (fun h => h0 ((hcond0 t).mp h)) (iblk m c 0 t) (iblk m c 1 t) (iblk m c 2 t) (iblk m c 3 t)
            (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data on core `c`: the arrays as the region finds them; after the body each input's buffer at its block and
    the accumulators at `outsAt`; the class's invariant; nothing owed; the feature array's share dealt in two halves to
    the two windows on it, the other input arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- After the first point an accumulator's buffer holds what the body left at the point before: it is written back
    only after the last point. -/
theorem before4_B (c : Dev nD) (t : Fin cfg0.N) (h0 : ¬t.val = 0) (d) :
    (dats m 0 c).before 4 t d = (outsAt m c (t.val - 1) (Nat.lt_of_le_of_lt (Nat.sub_le _ _) t.isLt)).1 := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dats]
theorem before5_B (c : Dev nD) (t : Fin cfg0.N) (h0 : ¬t.val = 0) (d) :
    (dats m 0 c).before 5 t d = (outsAt m c (t.val - 1) (Nat.lt_of_le_of_lt (Nat.sub_le _ _) t.isLt)).2 := by
  have hN : t.val < 256 := lt_of_lt_of_eq t.isLt (show cfg0.N = 256 from N_0)
  rw [Dat.before_out_kept _ 5 rfl t h0 (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the point is the first or not; at a later point the
    accumulators hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val = 0
  · rw [outsAt_A m c t h0]
    dsimp only
    unfold outA4 outA5
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ ((hcond0 t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 c _ _ _ _ _ _ _ _ _ _ _ _ _ _ _ _ _ _)
    · unfold owns; iexists _; isplitr
      swap; · iexact H5
      ipureintro; exact View.read_writes_of_cover _ _ _ _ _ (coverA5 c _ _ _ _ _ _ _ _ _ _ _ _ _ _ _ _ _ _)
  · rw [outsAt_B m c t h0]
    dsimp only
    simp only [before4_B m c t h0, before5_B m c t h0]
    unfold outB4 outB5
    iintro ⟨HΦ, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ (fun h => h0 ((hcond0 t).mp h)) (iblk m c 0 t) (iblk m c 1 t) (iblk m c 2 t) (iblk m c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 c _ _ _ _ _ _ _ _ _ _ _ _ _ _ _ _ _ _ _ _)
    · unfold owns; iexists _; isplitr
      swap; · iexact H5
      ipureintro; exact View.read_writes_of_cover _ _ _ _ _ (coverB5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealPieces.lean ====
/-
  What each case of the kernel body leaves in the two accumulators, as the body's own arithmetic.

  At grid point (0,0) the body stores zero, reads it back, and stores zero plus the tile's sum; at any other point it
  reads the running value and stores it plus the tile's sum. Here each accumulator's contents after the body are
  identified with the pure term of the body's arithmetic over the four loaded blocks (and the running value).
-/
import proofs.«161955_j76416058131342_1_alg».proof.Proof.KernelIdealBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Case B, first accumulator: the running value plus the tile's sum of the first summand. -/
theorem outB4_eq (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) :
    outB4 c i arg2 harg2 arg3 harg3 arg4 harg4 arg5 harg5 arg6 harg6 arg7 harg7 hc x0 x1 x2 x3 xo4 xo5
      = k0_pay1 (k0_pay6 x2 x3) (k0_pay7 x0 x1) (Scalar.ofBits .f32 0x00000000#32) xo4 := by
  unfold outB4
  rw [View.read_writes_eq_canon _ _ _ (coverB4 c i arg2 harg2 arg3 harg3 arg4 harg4 arg5 harg5 arg6 harg6 arg7 harg7 hc x0 x1 x2 x3 xo4 xo5)]
  unfold kernelRunB
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x128) hz, View.ld_unit_zero (S := S512x1) hz, View.ld_unit_zero (S := S1x512) hz, View.ld_unit_zero (S := S1x1) hz]

/-- Case B, second accumulator. -/
theorem outB5_eq (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : ¬cond0 i) (x0 x1 : Vec F S512x128 .f32) (x2 : Vec F S512x1 .i32) (x3 : Vec F S1x512 .i32) (xo4 xo5 : Vec F S1x1 .f32) :
    outB5 c i arg2 harg2 arg3 harg3 arg4 harg4 arg5 harg5 arg6 harg6 arg7 harg7 hc x0 x1 x2 x3 xo4 xo5
      = k0_pay2 (k0_pay5 x0 x1) (k0_pay6 x2 x3) xo5 := by
  unfold outB5
  rw [View.read_writes_eq_canon _ _ _ (coverB5 c i arg2 harg2 arg3 harg3 arg4 harg4 arg5 harg5 arg6 harg6 arg7 harg7 hc x0 x1 x2 x3 xo4 xo5)]
  unfold kernelRunB
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x128) hz, View.ld_unit_zero (S := S512x1) hz, View.ld_unit_zero (S := S1x512) hz, View.ld_unit_zero (S := S1x1) hz]

/-- Case A, first accumulator: zero (the value just stored, read back) plus the tile's sum. -/
theorem outA4_eq (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) :
    outA4 c i arg2 harg2 arg3 harg3 arg4 harg4 arg5 harg5 arg6 harg6 arg7 harg7 hc x0 x1 x2 x3
      = k0_pay1 (k0_pay6 x2 x3) (k0_pay7 x0 x1) (Scalar.ofBits .f32 0x00000000#32) (k0_pay3 (F := F)) := by
  unfold outA4
  rw [View.read_writes_eq_canon _ _ _ (coverA4 c i arg2 harg2 arg3 harg3 arg4 harg4 arg5 harg5 arg6 harg6 arg7 harg7 hc x0 x1 x2 x3)]
  unfold kernelRunA
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    View.ld_unit_zero (S := S512x128) hz, View.ld_unit_zero (S := S512x1) hz, View.ld_unit_zero (S := S1x512) hz, View.ld_unit_zero (S := S1x1) hz]

/-- Case A, second accumulator. -/
theorem outA5_eq (c : Dev nD) (i : grid0.Coords) (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole) (hc : cond0 i) (x0 x1 : Vec F S512x128 .f32) (x2 : Vec F S512x1 .i32) (x3 : Vec F S1x512 .i32) :
    outA5 c i arg2 harg2 arg3 harg3 arg4 harg4 arg5 harg5 arg6 harg6 arg7 harg7 hc x0 x1 x2 x3
      = k0_pay2 (k0_pay5 x0 x1) (k0_pay6 x2 x3) (k0_pay4 (F := F)) := by
  unfold outA5
  rw [View.read_writes_eq_canon _ _ _ (coverA5 c i arg2 harg2 arg3 harg3 arg4 harg4 arg5 harg5 arg6 harg6 arg7 harg7 hc x0 x1 x2 x3)]
  unfold kernelRunA
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    View.ld_unit_zero (S := S512x128) hz, View.ld_unit_zero (S := S512x1) hz, View.ld_unit_zero (S := S1x512) hz, View.ld_unit_zero (S := S1x1) hz]

end Cert.KernelIdeal.Hand

end
-- ==== Proof.KernelIdealLaunch.lean ====
/-
  The run of the whole program: the two label reshapes, the kernel region, the sixteen host operations after it.

  At the region's exit the two accumulators' arrays hold what the last grid point left (their one-cell blocks are written
  back once, after the last point), every input array holds what it held at entry, and the host operations after the
  region compute the loss from the accumulators and the feature matrix. The feature array is handed to the pipeline
  through two windows, each holding half of its share; the halves are rejoined at the exit.
-/
import proofs.«161955_j76416058131342_1_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor

/-- @main is the two reshapes, the region, then the sixteen later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The contents at the region's exit and at the program's end -/

open Classical in
/-- The buffers' contents when the region is left: as at entry, but for the two accumulators' arrays. -/
def Wexit (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

/-- The buffers' contents at the program's end: the later operations applied to the exit contents. -/
def Wfin (c : Dev nD) : Valuation τ sig (Elt F) := StableHlo.after (hostOps1 (F := F)) (Wexit m c)

theorem Wexit_v2_0 (c : Dev nD) : Wexit m c (Proc.devRef .tc main_v2_0) = (dats m 0 c).arrAt 4 cfg0.N := by
  unfold Wexit
  rw [Function.update_of_ne (StableHlo.devRef_ne_of_ne (by decide)), Function.update_self]
theorem Wexit_v2_1 (c : Dev nD) : Wexit m c (Proc.devRef .tc main_v2_1) = (dats m 0 c).arrAt 5 cfg0.N := by
  unfold Wexit
  rw [Function.update_self]
theorem Wexit_of_ne (c : Dev nD) (b : Ref sig .tc) (h4 : b ≠ main_v2_0) (h5 : b ≠ main_v2_1) :
    Wexit m c (Proc.devRef .tc b) = V m c b := by
  unfold Wexit
  rw [Function.update_of_ne (StableHlo.devRef_ne_of_ne h5), Function.update_of_ne (StableHlo.devRef_ne_of_ne h4)]

/-- Every array of the pipeline ends the region at the exit contents. -/
theorem arrAt_exit (c : Dev nD) (w : Fin cfg0.W) :
    (dats m 0 c).arrAt w cfg0.N = Wexit m c (Proc.devRef .tc (Pipeline.arrRef spec0 w)) := by
  match w with
  | ⟨0, _⟩ => exact (((dats m 0 c).arrAt_in 0 rfl _).trans (A_eq m c 0)).trans (Wexit_of_ne m c main_arg0 (by decide) (by decide)).symm
  | ⟨1, _⟩ => exact (((dats m 0 c).arrAt_in 1 rfl _).trans (A_eq m c 1)).trans (Wexit_of_ne m c main_arg0 (by decide) (by decide)).symm
  | ⟨2, _⟩ => exact (((dats m 0 c).arrAt_in 2 rfl _).trans (A_eq m c 2)).trans (Wexit_of_ne m c main_v0 (by decide) (by decide)).symm
  | ⟨3, _⟩ => exact (((dats m 0 c).arrAt_in 3 rfl _).trans (A_eq m c 3)).trans (Wexit_of_ne m c main_v1 (by decide) (by decide)).symm
  | ⟨4, _⟩ => exact (Wexit_v2_0 m c).symm
  | ⟨5, _⟩ => exact (Wexit_v2_1 m c).symm

/-! ## The run -/

/-- What the run establishes: every array of the pipeline at the library's final contents, every other unscoped
    buffer at the contents after the later operations. -/
def RunPost (r : PUnit × MemSt nD τ sig (Elt F)) : Prop :=
  ∀ c : Dev nD, (∀ w, r.2.mem (((cfgs 0).spec w).arr.view.loc (c.tc : Thread nD τ)) = (dats m 0 c).arrAt w (cfgs 0).N)
    ∧ ∀ b ∈ Pipeline.restRefs sig spec0, r.2.mem ((c.tc : Thread nD τ).loc b) = Wfin m c (Proc.devRef .tc b)

set_option backward.isDefEq.respectTransparency.types false in
/-- The run, given the two facts about the shared feature array: its share dealt to the two windows at entry, and the
    later operations run from the exit. -/
theorem run_main_of
    (hsplit : ∀ c, (Pipeline.arrBufs spec0 c (V m c) : sProp 𝕄) ⊢ (dats m 0 c).arrays ((dats m 0 c).arrAt · 0))
    (htail : ∀ (c : Dev nD) (Q' : PUnit → sProp 𝕄),
      iprop((iprop((dats m 0 c).arrays ((dats m 0 c).arrAt · cfg0.N)
              ∗ Pipeline.unscopedRest spec0 c (fun b => Wfin m c (Proc.devRef .tc b))) -∗ Q' ⟨⟩)
          ∗ boundary (c.tc : Thread nD τ) ∗ (dats m 0 c).arrays ((dats m 0 c).arrAt · cfg0.N)
          ∗ Pipeline.unscopedRest spec0 c (fun b => Wexit m c (Proc.devRef .tc b)))
        ⊢ wp frame (wpE (Pipeline.defs (fun q => (cfgs q).toPCfg (Val := Elt F)) (defs₀ (F := F))) (Variants.lift Variants.none) (c.tc : Thread nD τ) none) Set.univ
            (Pipeline.chain [StableHlo.seq (hostOps1 (F := F))]) Q') :
    θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      have e : (Pipeline.unscopedRest spec0 c (V m c) : sProp 𝕄) = Pipeline.unscopedRest spec0 c (fun b => Wexit m c (Proc.devRef .tc b)) := by
        unfold Pipeline.unscopedRest
        exact bigSep_congr fun b hb => by
          dsimp only
          rw [Wexit_of_ne m c b
            (fun h => (Finset.mem_sdiff.mp hb).2 (Finset.mem_image.mpr ⟨4, Finset.mem_univ _, h.symm⟩))
            (fun h => (Finset.mem_sdiff.mp hb).2 (Finset.mem_image.mpr ⟨5, Finset.mem_univ _, h.symm⟩))]
      rw [e]
      exact htail c Q')
    (QY := fun c s => ∀ b ∈ Pipeline.restRefsP sig Pipeline.Prefetch.none spec0, s.mem ((c.tc : Thread nD τ).loc b) = Wfin m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wfin m c (Proc.devRef .tc b)) s')
      isplitl [HU] <;> iassumption)
    (hQ := fun s h c => ⟨(h c).1, fun b hb => (h c).2.2 b
      (Finset.mem_sdiff.mpr ⟨hb, fun hk => by obtain ⟨k, -, -⟩ := Finset.mem_image.mp hk; exact k.elim0⟩)⟩)

end Cert.KernelIdeal.Hand

end
-- ==== Proof.Spec.lean ====
/-
  The pairwise loss as ONE function of the feature matrix and the labels, on the extended reals.

  For two feature rows x, x' (128 features each) put
    sqr x      = Σ_f x(f)²                 the squared norm,
    dotr x x'  = Σ_f x(f)·x'(f)            the inner product,
    distr x x' = max (sqr x + sqr x' − 2·dotr x x') 0   the clipped squared distance (Gram identity),
  and, with the rows' labels l, l',
    t1 = log (1.01 − exp (−distr x x'))  where l ≠ l', and 0 elsewhere,
    t2 = distr x x'                      where l = l', and 0 elsewhere.
  Over the feature matrix X (8192 rows) and the labels y, term1 p q and term2 p q are t1 and t2 of rows p and q, and
  the loss is −(Σ_{p,q} term1 p q)/2²⁶ + (Σ_{p,q} term2 p q)/2²⁶ + 0.01·(Σ_{p,f} X(p,f)²)/2²⁰.
  The float constants stay the binary words both programs spell (2.0, 1.01, 2²⁶, 2²⁰, 0.01); only the zero word is read.
-/
import Idealize.ShloMosaic.PureOps.Ideal
import Idealize.ShloMosaic.PureOps.Ideal.Laws
import Idealize.ShloMosaic.Lib.ValueIdx

noncomputable section

open scoped BigOperators

namespace Cert.PairLoss

open Idealize.ShloMosaic Idealize.ShloMosaic.ValueIdx

/-- A feature row at the ideal instance. -/
abbrev Row : Type := Fin 128 → EReal

/-- The squared norm of a row. -/
def sqr (x : Row) : EReal := ∑ f : Fin 128, x f * x f

/-- The inner product of two rows. -/
def dotr (x x' : Row) : EReal := ∑ f : Fin 128, x f * x' f

/-- The clipped squared distance of two rows by the Gram identity. -/
def distr (x x' : Row) : EReal :=
  max (sqr x + sqr x' - Ideal.ofBits .f32 0x40000000#32 * dotr x x') 0

/-- The first summand for a pair of rows with labels `l`, `l'`: the log term where the labels differ. -/
def t1 (x x' : Row) (l l' : BitVec 32) : EReal :=
  Scalar.select (IntOp.cmpi .ne l l') (Ideal.log (Ideal.ofBits .f32 0x3F8147AE#32 - Ideal.exp (-(distr x x')))) 0

/-- The second summand for a pair of rows: the distance where the labels agree. -/
def t2 (x x' : Row) (l l' : BitVec 32) : EReal :=
  Scalar.select (IntOp.cmpi .ne l l') 0 (distr x x')

/-- The feature matrix at the ideal instance: an extended real per (row, feature). -/
abbrev Feat : Type := (⟨2, ![8192, 128]⟩ : Shape).Idx → EReal
/-- The labels: a 32-bit word per row. -/
abbrev Lab : Type := (⟨1, ![8192]⟩ : Shape).Idx → BitVec 32

/-- Row `p` of the feature matrix. -/
def row (X : Feat) (p : Fin 8192) : Row := fun f => X (ix2 p f)

/-- The first summand at the pair of rows (p, q). -/
def term1 (X : Feat) (y : Lab) (p q : Fin 8192) : EReal := t1 (row X p) (row X q) (y (ix1 p)) (y (ix1 q))

/-- The second summand at the pair of rows (p, q). -/
def term2 (X : Feat) (y : Lab) (p q : Fin 8192) : EReal := t2 (row X p) (row X q) (y (ix1 p)) (y (ix1 q))

/-- The loss. -/
def loss (X : Feat) (y : Lab) : EReal :=
  (-(Ideal.div (∑ p : Fin 8192, ∑ q : Fin 8192, term1 X y p q) (Ideal.ofBits .f32 0x4C800000#32))
      + Ideal.div (∑ p : Fin 8192, ∑ q : Fin 8192, term2 X y p q) (Ideal.ofBits .f32 0x4C800000#32))
    + Ideal.ofBits .f32 0x3C23D70A#32
        * Ideal.div (∑ p : Fin 8192, ∑ f : Fin 128, X (ix2 p f) * X (ix2 p f)) (Ideal.ofBits .f32 0x49800000#32)

/-- The label comparison is symmetric. -/
theorem cmpi_ne_comm (l l' : BitVec 32) : IntOp.cmpi .ne l l' = IntOp.cmpi .ne l' l := by
  unfold IntOp.cmpi
  congr 1
  simp only [bne, BEq.comm (a := l)]

/-- The inner product is symmetric. -/
theorem dotr_comm (x x' : Row) : dotr x x' = dotr x' x := by
  unfold dotr
  exact Finset.sum_congr rfl fun f _ => mul_comm _ _

/-- The clipped distance is symmetric. -/
theorem distr_comm (x x' : Row) : distr x x' = distr x' x := by
  unfold distr
  rw [dotr_comm x x', add_comm (sqr x)]

/-- Both summands are symmetric in the pair of rows. -/
theorem t1_comm (x x' : Row) (l l' : BitVec 32) : t1 x x' l l' = t1 x' x l' l := by
  unfold t1; rw [cmpi_ne_comm l l', distr_comm x x']

theorem t2_comm (x x' : Row) (l l' : BitVec 32) : t2 x x' l l' = t2 x' x l' l := by
  unfold t2; rw [cmpi_ne_comm l l', distr_comm x x']

end Cert.PairLoss

end
-- ==== Proof.Payload.lean ====
/-
  The kernel body's arithmetic at one grid point, read at the ideal instance.

  From the two loaded 512×128 feature blocks (rows block x, columns block x'), the two label blocks (a [512,1] column l and a
  [1,512] row l') and an accumulator [1,1], the body computes
    the tile of clipped squared distances  D(a,b) = max (|x_a|² + |x'_b|² − 2·⟨x_a, x'_b⟩) 0
      (squares, lane sums, the column kept as [512,1], its transpose [1,512], a product of the two blocks contracting the
       feature axis of both into a zero accumulator, broadcasts);
    the label mask  M(a,b) = (l_a ≠ l'_b);
    the log tile  L(a,b) = log (1.01 − exp (0 − D(a,b)));
  and the two accumulator updates  acc + Σ_{a,b} (M ? L : 0)  and  acc + Σ_{a,b} (M ? 0 : D), each sum taken as lane sums
  followed by the sum of the [512,1] column of lane sums.
  Each is read here at explicit coordinates (a, b) as the pairwise loss's quantities of row a of the rows block and row b of
  the columns block: D = distr, the first update adds Σ t1, the second Σ t2.
-/
import proofs.«161955_j76416058131342_1_alg».proof.Proof.Spec
import proofs.«161955_j76416058131342_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadValue

open Idealize.ShloMosaic Idealize.ShloMosaic.ValueIdx Cert.KernelIdeal.Gen

/-- The lane sum of a 512×128 block at row a. -/
theorem laneSum128 (x : FVec Ideal S512x128 .f32) (hacc : (0x00000000#32 : BitVec 32) = 0x00000000#32) (a : Fin 512) :
    multiReduction .add [1] S512 x 0x00000000#32 reduces_S512x128_S512 (.inl rfl) hacc (ix1 a)
      = ∑ f : Fin 128, x (ix2 a f) :=
  (Ideal.multiReduction_add_single x 0x00000000#32 reduces_S512x128_S512 (.inl rfl) hacc (ix1 a)).trans
    (Finset.sum_congr rfl fun f _ => congrArg x (funext fun d => Fin.ext (by
      match d with
      | ⟨0, _⟩ => rfl
      | ⟨1, _⟩ => rfl)))

/-- A [512] vector cast to a [512,1] column reads, at (a, u), the vector at a. -/
theorem colCast_apply {α : Type} (v : S512.Idx → α) (a : Fin 512) (u : Fin 1) :
    shapeCast S512x1 v shapeCasts_S512_S512x1 (ix2 a u) = v (ix1 a) :=
  shapeCast_apply v shapeCasts_S512_S512x1 _ _ (by
    have hu : u.val = 0 := by omega
    rw [Shape.rowMajor_val_two, Shape.rowMajor_val_one]
    show a.val = a.val * 1 + u.val
    rw [hu, Nat.mul_one, Nat.add_zero])

/-- A [512,1] column transposed to a [1,512] row reads, at (u, b), the column at (b, u). -/
theorem rowOfCol_apply {α : Type} (w : S512x1.Idx → α) (u : Fin 1) (b : Fin 512) :
    transpose S1x512 [1, 0] w transposes_S512x1_p1_0_S1x512 (ix2 u b) = w (ix2 b u) :=
  transpose_ix2_apply w transposes_S512x1_p1_0_S1x512 u b

/-- A [512,1] column broadcast to the 512×512 tile reads, at (a, b), the column at (a, 0). -/
theorem colBroadcast_apply {α : Type} (w : S512x1.Idx → α) (a b : Fin 512) :
    broadcastTo S512x512 w broadcasts_S512x1_S512x512 (ix2 a b) = w (ix2 a (0 : Fin 1)) := by
  refine broadcastTo_apply w broadcasts_S512x1_S512x512 (ix2 a b) (ix2 a (0 : Fin 1)) fun ax => ?_
  match ax with
  | ⟨0, _⟩ =>
    show a.val = if (512 : Nat) = 1 then 0 else a.val
    rw [if_neg (by decide)]
  | ⟨1, _⟩ => rfl

/-- A [1,512] row broadcast to the 512×512 tile reads, at (a, b), the row at (0, b). -/
theorem rowBroadcast_apply {α : Type} (w : S1x512.Idx → α) (a b : Fin 512) :
    broadcastTo S512x512 w broadcasts_S1x512_S512x512 (ix2 a b) = w (ix2 (0 : Fin 1) b) :=
  broadcastTo_1b_ab_apply w broadcasts_S1x512_S512x512 a b

theorem gram_lhs0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem gram_lhs1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
theorem gram_rhs0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
theorem gram_rhs1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- The product of the two blocks into a zero accumulator, contracting the feature axis of both, reads at (a, b) the
    inner product of row a of the first and row b of the second. -/
theorem gram_apply {φ₁ φ₂ : FTy} (l : FVec Ideal S512x128 φ₁) (r : FVec Ideal S512x128 φ₂) (a b : Fin 512) :
    matmul dot_S512x128_S512x128_S512x512_1_1_0_0_n_n none l r (constant (F := Ideal) S512x512 .f32 0x00000000#32) (ix2 a b)
      = ∑ f : Fin 128, l (ix2 a f) * r (ix2 b f) := by
  refine (Ideal.matmul_constant_zero_apply dot_S512x128_S512x128_S512x512_1_1_0_0_n_n none l r (ix2 a b)).trans ?_
  rw [← Equiv.sum_comp (contrEquiv1 dot_S512x128_S512x128_S512x512_1_1_0_0_n_n 128 rfl rfl).symm]
  refine Finset.sum_congr rfl fun k _ => ?_
  have hk := contrEquiv1_symm_val dot_S512x128_S512x128_S512x512_1_1_0_0_n_n 128 rfl rfl k
  have el : dot_S512x128_S512x128_S512x512_1_1_0_0_n_n.lhsIdx (ix2 a b) ((contrEquiv1 dot_S512x128_S512x128_S512x512_1_1_0_0_n_n 128 rfl rfl).symm k) = ix2 a k := funext fun d => Fin.ext (by
    match d with
    | ⟨0, _⟩ => exact gram_lhs0 _ _
    | ⟨1, _⟩ => exact (gram_lhs1 _ _).trans hk)
  have er : dot_S512x128_S512x128_S512x512_1_1_0_0_n_n.rhsIdx (ix2 a b) ((contrEquiv1 dot_S512x128_S512x128_S512x512_1_1_0_0_n_n 128 rfl rfl).symm k) = ix2 b k := funext fun d => Fin.ext (by
    match d with
    | ⟨0, _⟩ => exact gram_rhs0 _ _
    | ⟨1, _⟩ => exact (gram_rhs1 _ _).trans hk)
  rw [el, er]

/-- Row a of a 512×128 block at the ideal instance. -/
abbrev rowOf (x : Vec Ideal S512x128 .f32) (a : Fin 512) : Cert.PairLoss.Row := fun f => x (ix2 a f)

/-- The squared norms of the first block's rows, as a column broadcast over the tile. -/
theorem sqCol_apply (x : Vec Ideal S512x128 .f32) (a b : Fin 512) :
    broadcastTo S512x512
        (shapeCast S512x1 (multiReduction (F := Ideal) .add [1] S512 (mulf x x) 0x00000000#32 reduces_S512x128_S512 (.inl rfl) rfl)
          shapeCasts_S512_S512x1) broadcasts_S512x1_S512x512 (ix2 a b)
      = Cert.PairLoss.sqr (rowOf x a) :=
  (colBroadcast_apply _ a b).trans ((colCast_apply _ a 0).trans (laneSum128 (mulf x x) rfl a))

/-- The squared norms of the second block's rows, as a row broadcast over the tile. -/
theorem sqRow_apply (x : Vec Ideal S512x128 .f32) (a b : Fin 512) :
    broadcastTo S512x512
        (transpose S1x512 [1, 0]
          (shapeCast S512x1 (multiReduction (F := Ideal) .add [1] S512 (mulf x x) 0x00000000#32 reduces_S512x128_S512 (.inl rfl) rfl)
            shapeCasts_S512_S512x1) transposes_S512x1_p1_0_S1x512) broadcasts_S1x512_S512x512 (ix2 a b)
      = Cert.PairLoss.sqr (rowOf x b) :=
  (rowBroadcast_apply _ a b).trans ((rowOfCol_apply _ 0 b).trans ((colCast_apply _ b 0).trans (laneSum128 (mulf x x) rfl b)))

/-- The inner products of the rows of the two blocks. -/
theorem gramTile_apply (xi xj : Vec Ideal S512x128 .f32) (a b : Fin 512) :
    matmul dot_S512x128_S512x128_S512x512_1_1_0_0_n_n none (truncf .bf16 xi bitsLt_bf16_f32) (truncf .bf16 xj bitsLt_bf16_f32)
        (constant (F := Ideal) S512x512 .f32 0x00000000#32) (ix2 a b)
      = Cert.PairLoss.dotr (rowOf xi a) (rowOf xj b) :=
  gram_apply (truncf .bf16 xi bitsLt_bf16_f32) (truncf .bf16 xj bitsLt_bf16_f32) a b

/-- The clipped distance tile at (a, b) is the clipped squared distance of row a of the first block and row b of the
    second. -/
theorem pay5_apply (xi xj : Vec Ideal S512x128 .f32) (a b : Fin 512) :
    k0_pay5 (F := Ideal) xi xj (ix2 a b) = Cert.PairLoss.distr (rowOf xi a) (rowOf xj b) := by
  unfold k0_pay5 Cert.PairLoss.distr
  exact congrArg₂ max
    (congrArg₂ (· - ·) (congrArg₂ (· + ·) (sqCol_apply xi a b) (sqRow_apply xj a b))
      (congrArg (Ideal.ofBits .f32 0x40000000#32 * ·) (gramTile_apply xi xj a b)))
    Ideal.ofBits_zero_f32

/-- The label mask at (a, b) compares the label of row a of the row block with the label of row b of the column block. -/
theorem pay6_apply (yi : Vec Ideal S512x1 .i32) (yj : Vec Ideal S1x512 .i32) (a b : Fin 512) :
    k0_pay6 (F := Ideal) yi yj (ix2 a b) = IntOp.cmpi .ne (yi (ix2 a (0 : Fin 1))) (yj (ix2 (0 : Fin 1) b)) := by
  unfold k0_pay6
  exact congrArg₂ (IntOp.cmpi .ne)
    ((colBroadcast_apply _ a b).trans (congrFun (shapeCast_self yi shapeCasts_S512x1_S512x1) _))
    ((rowBroadcast_apply _ a b).trans (congrFun (shapeCast_self yj shapeCasts_S1x512_S1x512) _))

/-- The log term at (a, b). -/
theorem pay7_apply (xi xj : Vec Ideal S512x128 .f32) (a b : Fin 512) :
    k0_pay7 (F := Ideal) xi xj (ix2 a b)
      = Ideal.log (Ideal.ofBits .f32 0x3F8147AE#32 - Ideal.exp (-(Cert.PairLoss.distr (rowOf xi a) (rowOf xj b)))) := by
  unfold k0_pay7
  show Ideal.log (Ideal.ofBits .f32 0x3F8147AE#32
      - Ideal.exp (Ideal.ofBits .f32 0x00000000#32 - k0_pay5 (F := Ideal) xi xj (ix2 a b))) = _
  rw [pay5_apply, Ideal.ofBits_zero_f32, zero_sub]

/-- The lane sum of a 512×512 tile at row a. -/
theorem laneSum512 (x : FVec Ideal S512x512 .f32) (hacc : (0x00000000#32 : BitVec 32) = 0x00000000#32) (a : Fin 512) :
    multiReduction .add [1] S512 x 0x00000000#32 reduces_S512x512_S512 (.inl rfl) hacc (ix1 a)
      = ∑ b : Fin 512, x (ix2 a b) :=
  (Ideal.multiReduction_add_single x 0x00000000#32 reduces_S512x512_S512 (.inl rfl) hacc (ix1 a)).trans
    (Finset.sum_congr rfl fun f _ => congrArg x (funext fun d => Fin.ext (by
      match d with
      | ⟨0, _⟩ => rfl
      | ⟨1, _⟩ => rfl)))

/-- The sum down a [512,1] column. -/
theorem colSum (x : FVec Ideal S512x1 .f32) (hacc : (0x00000000#32 : BitVec 32) = 0x00000000#32) (u : Fin 1) :
    multiReduction .add [0] S1 x 0x00000000#32 reduces_S512x1_S1 (.inl rfl) hacc (ix1 u)
      = ∑ a : Fin 512, x (ix2 a u) :=
  (Ideal.multiReduction_add_single x 0x00000000#32 reduces_S512x1_S1 (.inl rfl) hacc (ix1 u)).trans
    (Finset.sum_congr rfl fun f _ => congrArg x (funext fun d => Fin.ext (by
      match d with
      | ⟨0, _⟩ => rfl
      | ⟨1, _⟩ => rfl)))

/-- The sum over the whole 512×512 tile as the kernel takes it: lane sums, then the sum of the column of lane sums. -/
theorem tileSum_apply (G : FVec Ideal S512x512 .f32) (u v : Fin 1) :
    shapeCast S1x1
        (multiReduction (F := Ideal) .add [0] S1
          (shapeCast S512x1 (multiReduction (F := Ideal) .add [1] S512 G 0x00000000#32 reduces_S512x512_S512 (.inl rfl) rfl)
            shapeCasts_S512_S512x1) 0x00000000#32 reduces_S512x1_S1 (.inl rfl) rfl) shapeCasts_S1_S1x1 (ix2 u v)
      = ∑ a : Fin 512, ∑ b : Fin 512, G (ix2 a b) :=
  (shapeCast_a_1a_apply _ shapeCasts_S1_S1x1 u v).trans ((colSum _ rfl v).trans
    (Finset.sum_congr rfl fun a _ => (colCast_apply _ a v).trans (laneSum512 G rfl a)))

/-- A [1,1] array has one index. -/
theorem idx11 (j : S1x1.Idx) : j = ix2 (0 : Fin 1) (0 : Fin 1) :=
  funext fun d => Fin.ext (by
    match d with
    | ⟨0, _⟩ => have h : (j 0).val < 1 := (j 0).isLt; show (j 0).val = 0; omega
    | ⟨1, _⟩ => have h : (j 1).val < 1 := (j 1).isLt; show (j 1).val = 0; omega)

/-- The first accumulator's update: the accumulator plus the sum over the tile of the first summand of every pair of a
    row of the row block and a row of the column block. -/
theorem pay1_eq (xi xj : Vec Ideal S512x128 .f32) (yi : Vec Ideal S512x1 .i32) (yj : Vec Ideal S1x512 .i32)
    (acc : Vec Ideal S1x1 .f32) :
    Cert.KernelIdeal.Gen.k0_pay1 (F := Ideal) (Gen.k0_pay6 (F := Ideal) yi yj) (Gen.k0_pay7 (F := Ideal) xi xj)
        (Scalar.ofBits .f32 0x00000000#32) acc
      = fun _ => acc (ix2 0 0) + ∑ a : Fin 512, ∑ b : Fin 512,
          Cert.PairLoss.t1 (rowOf xi a) (rowOf xj b) (yi (ix2 a 0)) (yj (ix2 0 b)) := by
  funext j
  obtain rfl := idx11 j
  unfold k0_pay1
  refine congrArg₂ (· + ·) (congrFun (shapeCast_self acc shapeCasts_S1x1_S1x1) _)
    ((tileSum_apply _ 0 0).trans (Finset.sum_congr rfl fun a _ => Finset.sum_congr rfl fun b _ => ?_))
  show Scalar.select (k0_pay6 (F := Ideal) yi yj (ix2 a b)) (k0_pay7 (F := Ideal) xi xj (ix2 a b))
      (Ideal.ofBits .f32 0x00000000#32) = _
  rw [pay6_apply, pay7_apply, Ideal.ofBits_zero_f32]
  rfl

/-- The second accumulator's update: the accumulator plus the sum over the tile of the second summand of every pair. -/
theorem pay2_eq (xi xj : Vec Ideal S512x128 .f32) (yi : Vec Ideal S512x1 .i32) (yj : Vec Ideal S1x512 .i32)
    (acc : Vec Ideal S1x1 .f32) :
    Cert.KernelIdeal.Gen.k0_pay2 (F := Ideal) (Gen.k0_pay5 (F := Ideal) xi xj) (Gen.k0_pay6 (F := Ideal) yi yj) acc
      = fun _ => acc (ix2 0 0) + ∑ a : Fin 512, ∑ b : Fin 512,
          Cert.PairLoss.t2 (rowOf xi a) (rowOf xj b) (yi (ix2 a 0)) (yj (ix2 0 b)) := by
  funext j
  obtain rfl := idx11 j
  unfold k0_pay2
  refine congrArg₂ (· + ·) (congrFun (shapeCast_self acc shapeCasts_S1x1_S1x1) _)
    ((tileSum_apply _ 0 0).trans (Finset.sum_congr rfl fun a _ => Finset.sum_congr rfl fun b _ => ?_))
  show Scalar.select (k0_pay6 (F := Ideal) yi yj (ix2 a b)) (Ideal.ofBits .f32 0x00000000#32)
      (k0_pay5 (F := Ideal) xi xj (ix2 a b)) = _
  rw [pay6_apply, pay5_apply, Ideal.ofBits_zero_f32]
  rfl

end Cert.KernelIdeal.PayloadValue

end
-- ==== Proof.TileSums.lean ====
import Mathlib.Algebra.BigOperators.Fin
import Mathlib.Data.Fintype.BigOperators
import Mathlib.Logic.Equiv.Fin.Basic

/-!
# Regrouping finite sums over tiled index ranges

Pure finite-sum regrouping in an arbitrary commutative additive monoid:

* an axis of 8192 rows cut into 16 tiles of 512 rows (`sum_tileRow`, `sum_tiles`);
* a 16 × 16 grid walked row-major by a single index `t < 256` (`sum_grid`);
* a running sum equals the finite sum of its increments (`acc_eq_sum`);
* a sum over `Finset.range 256` as a sum over `Fin 256` (`sum_range_256`).
-/

open Finset

namespace Cert.PairLoss

/-- Row 512·s + r of an 8192-row axis cut into 16 tiles of 512. -/
def tileRow (s : Fin 16) (r : Fin 512) : Fin 8192 := ⟨512 * s.val + r.val, by omega⟩

@[simp] theorem tileRow_val (s : Fin 16) (r : Fin 512) :
    (tileRow s r).val = 512 * s.val + r.val := rfl

/-- The bijection (s, r) ↦ 512·s + r between (tile, row in tile) and the full axis;
its inverse is p ↦ (p / 512, p % 512). -/
def tileEquiv : Fin 16 × Fin 512 ≃ Fin 8192 where
  toFun x := tileRow x.1 x.2
  invFun p := (⟨p.val / 512, by omega⟩, ⟨p.val % 512, by omega⟩)
  left_inv := by
    rintro ⟨s, r⟩
    refine Prod.ext (Fin.ext ?_) (Fin.ext ?_)
    · show (512 * s.val + r.val) / 512 = s.val
      omega
    · show (512 * s.val + r.val) % 512 = r.val
      omega
  right_inv := by
    intro p
    refine Fin.ext ?_
    show 512 * (p.val / 512) + p.val % 512 = p.val
    omega

/-- One axis: a sum over 8192 rows is the sum over the 16 tiles of the sums over the
512 rows of each tile. -/
theorem sum_tileRow {M : Type*} [AddCommMonoid M] (h : Fin 8192 → M) :
    (∑ p : Fin 8192, h p) = ∑ s : Fin 16, ∑ r : Fin 512, h (tileRow s r) := by
  rw [← Fintype.sum_prod_type' (fun s r => h (tileRow s r))]
  exact (Fintype.sum_equiv tileEquiv (fun x => h (tileRow x.1 x.2)) h (fun _ => rfl)).symm

/-- Both axes: the sum over all 16 × 16 pairs of tiles of the sums over the 512 × 512 pairs of
rows inside the pair of tiles is the sum over all 8192 × 8192 pairs of rows. -/
theorem sum_tiles {M : Type*} [AddCommMonoid M] (f : Fin 8192 → Fin 8192 → M) :
    (∑ i : Fin 16, ∑ j : Fin 16, ∑ a : Fin 512, ∑ b : Fin 512, f (tileRow i a) (tileRow j b))
      = ∑ p : Fin 8192, ∑ q : Fin 8192, f p q := by
  rw [sum_tileRow (fun p => ∑ q : Fin 8192, f p q)]
  refine Finset.sum_congr rfl (fun i _ => ?_)
  rw [Finset.sum_comm]
  refine Finset.sum_congr rfl (fun a _ => ?_)
  exact (sum_tileRow (fun q => f (tileRow i a) q)).symm

/-- The bijection (i, j) ↦ 16·i + j between the 16 × 16 grid and its row-major index;
its inverse is t ↦ (t / 16, t % 16). -/
def gridEquiv : Fin 16 × Fin 16 ≃ Fin 256 where
  toFun x := ⟨16 * x.1.val + x.2.val, by omega⟩
  invFun t := (⟨t.val / 16, by omega⟩, ⟨t.val % 16, by omega⟩)
  left_inv := by
    rintro ⟨i, j⟩
    refine Prod.ext (Fin.ext ?_) (Fin.ext ?_)
    · show (16 * i.val + j.val) / 16 = i.val
      omega
    · show (16 * i.val + j.val) % 16 = j.val
      omega
  right_inv := by
    intro t
    refine Fin.ext ?_
    show 16 * (t.val / 16) + t.val % 16 = t.val
    omega

/-- A 16×16 grid walked row-major by one index t < 256: point t is (t / 16, t % 16). -/
theorem sum_grid {M : Type*} [AddCommMonoid M] (g : Fin 16 → Fin 16 → M) :
    (∑ t : Fin 256, g ⟨t.val / 16, by omega⟩ ⟨t.val % 16, by omega⟩)
      = ∑ i : Fin 16, ∑ j : Fin 16, g i j := by
  rw [← Fintype.sum_prod_type' g]
  exact Fintype.sum_equiv gridEquiv.symm
    (fun t : Fin 256 => g ⟨t.val / 16, by omega⟩ ⟨t.val % 16, by omega⟩)
    (fun x : Fin 16 × Fin 16 => g x.1 x.2) (fun _ => rfl)

/-- A running sum: acc 0 = tile 0 and acc (n+1) = acc n + tile (n+1) give
acc n = Σ_{s ≤ n} tile s. -/
theorem acc_eq_sum {M : Type*} [AddCommMonoid M] (tile acc : ℕ → M) (h0 : acc 0 = tile 0)
    (hs : ∀ n, acc (n + 1) = acc n + tile (n + 1)) :
    ∀ n, acc n = ∑ s ∈ Finset.range (n + 1), tile s := by
  intro n
  induction n with
  | zero => rw [h0, Finset.sum_range_one]
  | succ n ih => rw [hs n, ih, Finset.sum_range_succ (fun s => tile s) (n + 1)]

/-- Σ_{s ∈ range 256} tile s = Σ_{t : Fin 256} tile t. -/
theorem sum_range_256 {M : Type*} [AddCommMonoid M] (tile : ℕ → M) :
    (∑ s ∈ Finset.range 256, tile s) = ∑ t : Fin 256, tile t.val :=
  Finset.sum_range tile

end Cert.PairLoss
-- ==== Proof.KernelIdealAcc.lean ====
/-
  The two accumulators in closed form, at the ideal instance.

  After the body at grid point n each accumulator holds the sum over the points s ≤ n of that point's tile sum: at point 0
  the zero just stored plus the first tile's sum, afterwards the running value plus the next tile's sum. The accumulators'
  one-cell arrays are written back once, after the last point, and so end holding the sum over all 256 points.
-/
import proofs.«161955_j76416058131342_1_alg».proof.Proof.KernelIdealPieces
import proofs.«161955_j76416058131342_1_alg».proof.Proof.KernelIdealLaunch
import proofs.«161955_j76416058131342_1_alg».proof.Proof.Payload
import proofs.«161955_j76416058131342_1_alg».proof.Proof.TileSums
import Idealize.ShloMosaic.Lib.Pipeline.Value

set_option maxRecDepth 16384

noncomputable section

open scoped BigOperators

namespace Cert.KernelIdeal.Hand

open Cert.KernelIdeal Cert.KernelIdeal.Gen Cert.PairLoss Cert.KernelIdeal.PayloadValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The sum of the first summand over the 512×512 tile of pairs at grid point `s` (zero past the grid). -/
def tile1 (c : Dev nD) (s : ℕ) : EReal :=
  if h : s < cfg0.N then
    ∑ a : Fin 512, ∑ b : Fin 512,
      t1 (rowOf (iblk m c 0 ⟨s, h⟩ : Vec Ideal S512x128 .f32) a) (rowOf (iblk m c 1 ⟨s, h⟩ : Vec Ideal S512x128 .f32) b)
        ((iblk m c 2 ⟨s, h⟩ : Vec Ideal S512x1 .i32) (ix2 a 0)) ((iblk m c 3 ⟨s, h⟩ : Vec Ideal S1x512 .i32) (ix2 0 b))
  else 0

/-- The sum of the second summand over the tile at grid point `s`. -/
def tile2 (c : Dev nD) (s : ℕ) : EReal :=
  if h : s < cfg0.N then
    ∑ a : Fin 512, ∑ b : Fin 512,
      t2 (rowOf (iblk m c 0 ⟨s, h⟩ : Vec Ideal S512x128 .f32) a) (rowOf (iblk m c 1 ⟨s, h⟩ : Vec Ideal S512x128 .f32) b)
        ((iblk m c 2 ⟨s, h⟩ : Vec Ideal S512x1 .i32) (ix2 a 0)) ((iblk m c 3 ⟨s, h⟩ : Vec Ideal S1x512 .i32) (ix2 0 b))
  else 0

/-- The value the reset stores is zero. -/
theorem pay3_apply (j : S1x1.Idx) : k0_pay3 (F := Ideal) j = 0 := by
  unfold k0_pay3
  exact Ideal.ofBits_zero_f32
theorem pay4_apply (j : S1x1.Idx) : k0_pay4 (F := Ideal) j = 0 := by
  unfold k0_pay4
  exact Ideal.ofBits_zero_f32

/-- The first accumulator after point `n` is the sum of the tiles' sums up to `n`. -/
theorem acc1_eq (c : Dev nD) : ∀ (n : ℕ) (h : n < cfg0.N),
    (outsAt m c n h).1 = fun _ => ∑ s ∈ Finset.range (n + 1), tile1 m c s
  | 0, h => by
    rw [show outsAt m c 0 h = _ from outsAt_A m c ⟨0, h⟩ rfl]
    dsimp only
    rw [outA4_eq, pay1_eq]
    funext _
    rw [Finset.sum_range_one, tile1, dif_pos h, pay3_apply, zero_add]
  | n + 1, h => by
    rw [show outsAt m c (n + 1) h = _ from outsAt_B m c ⟨n + 1, h⟩ (Nat.succ_ne_zero n)]
    dsimp only [Nat.add_one_sub_one]
    rw [outB4_eq, pay1_eq, acc1_eq c n]
    funext _
    rw [Finset.sum_range_succ _ (n + 1), tile1, dif_pos h]

/-- The second accumulator likewise. -/
theorem acc2_eq (c : Dev nD) : ∀ (n : ℕ) (h : n < cfg0.N),
    (outsAt m c n h).2 = fun _ => ∑ s ∈ Finset.range (n + 1), tile2 m c s
  | 0, h => by
    rw [show outsAt m c 0 h = _ from outsAt_A m c ⟨0, h⟩ rfl]
    dsimp only
    rw [outA5_eq, pay2_eq]
    funext _
    rw [Finset.sum_range_one, tile2, dif_pos h, pay4_apply, zero_add]
  | n + 1, h => by
    rw [show outsAt m c (n + 1) h = _ from outsAt_B m c ⟨n + 1, h⟩ (Nat.succ_ne_zero n)]
    dsimp only [Nat.add_one_sub_one]
    rw [outB5_eq, pay2_eq, acc2_eq c n]
    funext _
    rw [Finset.sum_range_succ _ (n + 1), tile2, dif_pos h]

/-! ## The accumulators' arrays at the region's exit -/

/-- The last grid point. -/
def tLast : Fin cfg0.N := ⟨255, by rw [show cfg0.N = 256 from N_0]; decide⟩

/-- The one write-back of the first accumulator, after the last point, writes what that point left: its block is the
    whole one-cell array. -/
theorem flushed4_eq (c : Dev nD) (t : Fin cfg0.N) (hf : (cfg0.win 4).flush t = true) :
    (dats m 0 c).flushed 4 t
      = ((cfg0.win 4).blk t).view.read (Elt Ideal) ((outsAt m c tLast.val tLast.isLt).1 : Buf (Elt Ideal) ((c : Thread nD τ).loc main_v2_0)) := by
  have hN : cfg0.N = 256 := N_0
  have h3 : t.val = 255 := by have := (flush0_4 t).mp hf; have := t.isLt; omega
  obtain rfl : t = tLast := Fin.ext h3
  show (cfg0.win 4).cut (grid0.coords tLast) ((dats m 0 c).after 4 tLast) = _
  rw [after4]
  have hz' : (fun a => win0_4.index tLast a * main_v2_0.ty.shape.size a) = fun _ => 0 := funext fun a => by fin_cases a <;> decide +kernel
  exact (Memref.read_access_unit_zero (Elt Ideal) main_v2_0 hz' (fun a => by rw [congrFun hz' a]; simp) _).symm

theorem flushed5_eq (c : Dev nD) (t : Fin cfg0.N) (hf : (cfg0.win 5).flush t = true) :
    (dats m 0 c).flushed 5 t
      = ((cfg0.win 5).blk t).view.read (Elt Ideal) ((outsAt m c tLast.val tLast.isLt).2 : Buf (Elt Ideal) ((c : Thread nD τ).loc main_v2_1)) := by
  have hN : cfg0.N = 256 := N_0
  have h3 : t.val = 255 := by have := (flush0_5 t).mp hf; have := t.isLt; omega
  obtain rfl : t = tLast := Fin.ext h3
  show (cfg0.win 5).cut (grid0.coords tLast) ((dats m 0 c).after 5 tLast) = _
  rw [after5]
  have hz' : (fun a => win0_5.index tLast a * main_v2_1.ty.shape.size a) = fun _ => 0 := funext fun a => by fin_cases a <;> decide +kernel
  exact (Memref.read_access_unit_zero (Elt Ideal) main_v2_1 hz' (fun a => by rw [congrFun hz' a]; simp) _).symm

/-- So the first accumulator's array ends holding what the last point left. -/
theorem final4 (c : Dev nD) : (dats m 0 c).arrAt 4 cfg0.N = (outsAt m c tLast.val tLast.isLt).1 :=
  (dats m 0 c).arrAt_eq_of_cover 4 _ (flushed4_eq m c) fun i =>
    ⟨tLast, (flush0_4 tLast).mpr rfl, by
      show i ∈ ((View.whole main_v2_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

theorem final5 (c : Dev nD) : (dats m 0 c).arrAt 5 cfg0.N = (outsAt m c tLast.val tLast.isLt).2 :=
  (dats m 0 c).arrAt_eq_of_cover 5 _ (flushed5_eq m c) fun i =>
    ⟨tLast, (flush0_5 tLast).mpr rfl, by
      show i ∈ ((View.whole main_v2_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- At the region's exit the two accumulators' arrays hold the sums over all 256 grid points of the tiles' sums. -/
theorem exit_acc1 (c : Dev nD) :
    (Wexit m c (Proc.devRef .tc main_v2_0) : S1x1.Idx → EReal) = fun _ => ∑ s ∈ Finset.range 256, tile1 m c s := by
  rw [Wexit_v2_0, final4]
  exact acc1_eq m c 255 tLast.isLt
theorem exit_acc2 (c : Dev nD) :
    (Wexit m c (Proc.devRef .tc main_v2_1) : S1x1.Idx → EReal) = fun _ => ∑ s ∈ Finset.range 256, tile2 m c s := by
  rw [Wexit_v2_1, final5]
  exact acc2_eq m c 255 tLast.isLt

end Cert.KernelIdeal.Hand

end
-- ==== Proof.KernelIdealShare.lean ====
import proofs.«161955_j76416058131342_1_alg».proof.Proof.Gen.KernelIdeal.Launch
import Idealize.ShloMosaic.Lib.Pipeline.FrameSuffix
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # The arrays of a launch whose first two windows read one array

Windows 0 and 1 both read the feature array; the launch deals its full share to them as two halves,
every other window's array is held whole, and after the region the halves are rejoined for the
host operations that follow, which write no array. -/

/-- The distinct arrays behind the six windows: the feature array (windows 0 and 1), the two label
    arrays (windows 2, 3) and the two results (windows 4, 5). -/
theorem arrRefs_eq : Finset.univ.image (Pipeline.arrRef spec0) = [main_arg0, main_v0, main_v1, main_v2_0, main_v2_1].toFinset := by decide

/-- The buffers behind the arrays as a chain of five whole points-tos. -/
theorem arrBufs_chain (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_v0) ↦{fullShare} V main_v0)
          ∗ (((c.tc : Thread nD τ).loc main_v1) ↦{fullShare} V main_v1) ∗ (((c.tc : Thread nD τ).loc main_v2_0) ↦{fullShare} V main_v2_0)
          ∗ (((c.tc : Thread nD τ).loc main_v2_1) ↦{fullShare} V main_v2_1)) := by
  unfold Pipeline.arrBufs
  exact bigSep_eq_bigSepL_of_eq [main_arg0, main_v0, main_v1, main_v2_0, main_v2_1] arrRefs_eq (by decide) _

/-- The windows' arrays as a chain of six points-tos: the feature array twice, at the two shares the
    first two windows hold it at; every other array whole. -/
theorem arrays_chain (c : Dev nD) (dat : Dat τ (Elt F) Unit ℕ (UR sig nD τ) ℕ cfg0 c)
    (Fa : (w : Fin cfg0.W) → Buf (Elt F) ((cfg0.win w).arr.view.loc (c.tc : Thread nD τ))) :
    (dat.arrays Fa : sProp 𝕄)
      = iprop((((c.tc : Thread nD τ).loc main_arg0) ↦{dat.q 0} Fa 0) ∗ (((c.tc : Thread nD τ).loc main_arg0) ↦{dat.q 1} Fa 1)
          ∗ (((c.tc : Thread nD τ).loc main_v0) ↦{dat.q 2} Fa 2) ∗ (((c.tc : Thread nD τ).loc main_v1) ↦{dat.q 3} Fa 3)
          ∗ (((c.tc : Thread nD τ).loc main_v2_0) ↦{fullShare} Fa 4) ∗ (((c.tc : Thread nD τ).loc main_v2_1) ↦{fullShare} Fa 5)) := by
  unfold Dat.arrays
  -- windows 0 and 1 are on one array: one rewriting serves both
  rw [bigSep_W0, (arr_whole0 0).set_eq_univ, (arr_whole0 2).set_eq_univ, (arr_whole0 3).set_eq_univ,
    (arr_whole0 4).set_eq_univ, (arr_whole0 5).set_eq_univ]
  rfl

/-- L1. The feature array's full share dealt as two halves to the two windows on it; every other array whole. -/
theorem arrays_of_arrBufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (Fa : (w : Fin cfg0.W) → Buf (Elt F) ((cfg0.win w).arr.view.loc (c.tc : Thread nD τ)))
    (hF : ∀ w, Fa w = V (Pipeline.arrRef spec0 w)) :
    (Pipeline.arrBufs spec0 c V : sProp 𝕄) ⊢ dat.arrays Fa := by
  rw [arrBufs_chain, arrays_chain, hq0, hq1, hq2, hq3, hF 0, hF 1, hF 2, hF 3, hF 4, hF 5]
  iintro ⟨H0, H2, H3, H4, H5⟩
  ihave H0 := (pointsTo_share (PosShare.mem_left_op_right fullShare)).1 $$ H0
  icases H0 with ⟨H0a, H0b⟩
  isplitl [H0a]; · iexact H0a
  isplitl [H0b]; · iexact H0b
  isplitl [H2]; · iexact H2
  isplitl [H3]; · iexact H3
  isplitl [H4]; · iexact H4
  iexact H5

/-- The converse of L1: the two halves of the feature array rejoined. -/
theorem arrBufs_of_arrays (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (Fa : (w : Fin cfg0.W) → Buf (Elt F) ((cfg0.win w).arr.view.loc (c.tc : Thread nD τ)))
    (hF : ∀ w, Fa w = V (Pipeline.arrRef spec0 w)) :
    dat.arrays Fa ⊢ (Pipeline.arrBufs spec0 c V : sProp 𝕄) := by
  rw [arrBufs_chain, arrays_chain, hq0, hq1, hq2, hq3, hF 0, hF 1, hF 2, hF 3, hF 4, hF 5]
  iintro ⟨H0a, H0b, H2, H3, H4, H5⟩
  ihave H0 := (pointsTo_share (PosShare.mem_left_op_right fullShare)).2 $$ [H0a H0b]
  · isplitl [H0a]; · iexact H0a
    iexact H0b
  isplitl [H0]; · iexact H0
  isplitl [H2]; · iexact H2
  isplitl [H3]; · iexact H3
  isplitl [H4]; · iexact H4
  iexact H5

/-! ## The host operations after the region -/

/-- All the unscoped buffers held at a valuation: the buffers behind the arrays and the rest. -/
theorem held_ucRefs (c : Dev nD) (W : Valuation τ sig (Elt F)) :
    (StableHlo.held (c.tc : Thread nD τ) (Pipeline.ucRefs τ sig) W : sProp 𝕄)
      = iprop((Pipeline.arrBufs spec0 c (fun b => W (Proc.devRef .tc b)) : sProp 𝕄)
          ∗ Pipeline.unscopedRest spec0 c (fun b => W (Proc.devRef .tc b))) := by
  rw [← Pipeline.unscopedBufs_held (Ix := Unit) (Name := ℕ) (U := UR sig nD τ) (Lvl := ℕ) c W]
  exact Pipeline.PerCore.unscopedBufs_split₀ (fun _ _ => cfg0) (0 : Fin 1) c winFacts₀0.arr_unscoped _

/-- The operations after the region touch unscoped buffers only. -/
theorem hostOps1_uc : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- They allocate nothing. -/
theorem hostOps1_fresh : ∀ ops ∈ ([hostOps1] : List (List (HloOp τ sig (Elt F)))), ∀ op ∈ ops, op.fresh = ∅ := by
  intro ops hops op hop
  simp only [List.mem_cons, List.mem_nil_iff, or_false] at hops
  rcases hops with rfl
  have h : (hostOps1 : List (HloOp τ sig (Elt F))).Forall fun op => op.fresh = ∅ := by
    simp only [List.Forall]; repeat' constructor
  exact (List.forall_iff_forall_mem.mp h) op hop

/-- And write no array of the pipeline: each writes its own result, which is no array. -/
theorem hostOps1_keeps (Wv : Valuation τ sig (Elt F)) (w : Fin 6) :
    StableHlo.after (hostOps1 (F := F)) Wv (Proc.devRef .tc (Pipeline.arrRef spec0 w)) = Wv (Proc.devRef .tc (Pipeline.arrRef spec0 w)) := by
  refine StableHlo.after_of_forall_not_mem _ _ fun op hop => ?_
  simp only [hostOps1, List.mem_cons, List.mem_nil_iff, or_false] at hop
  rcases hop with rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton]
    exact StableHlo.devRef_ne_of_ne (by revert w; decide)

set_option backward.isDefEq.respectTransparency.types false in
/-- L2. The host operations after the region, run from the region's exit. -/
theorem tail_after (𝒱₀ : Variants) (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Wv : Valuation τ sig (Elt F))
    (Fa : (w : Fin cfg0.W) → Buf (Elt F) ((cfg0.win w).arr.view.loc (c.tc : Thread nD τ)))
    (hF : ∀ w, Fa w = Wv (Proc.devRef .tc (Pipeline.arrRef spec0 w)))
    (Q' : PUnit → sProp 𝕄) :
    iprop((iprop(dat.arrays Fa ∗ Pipeline.unscopedRest spec0 c (fun b => StableHlo.after (hostOps1 (F := F)) Wv (Proc.devRef .tc b))) -∗ Q' ⟨⟩)
        ∗ boundary (c.tc : Thread nD τ) ∗ dat.arrays Fa ∗ Pipeline.unscopedRest spec0 c (fun b => Wv (Proc.devRef .tc b)))
      ⊢ wp frame (wpE (Pipeline.defs (fun q => (cfgs q).toPCfg (Val := Elt F)) (defs₀ (F := F))) (Variants.lift 𝒱₀) (c.tc : Thread nD τ) none) Set.univ
          (Pipeline.chain [StableHlo.seq (hostOps1 (F := F))]) Q' := by
  -- the arrays and the rest, rejoined, are all the unscoped buffers at the exit contents
  have hin : iprop(dat.arrays Fa ∗ Pipeline.unscopedRest spec0 c (fun b => Wv (Proc.devRef .tc b)))
      ⊢ (StableHlo.held (c.tc : Thread nD τ) (Pipeline.ucRefs τ sig) Wv : sProp 𝕄) := by
    rw [held_ucRefs]
    exact sep_mono (arrBufs_of_arrays c dat hq0 hq1 hq2 hq3 (fun b => Wv (Proc.devRef .tc b)) Fa hF) .rfl
  -- and after the operations, which write no array, they are dealt back
  have hout : (StableHlo.held (c.tc : Thread nD τ) (Pipeline.ucRefs τ sig) (StableHlo.after (hostOps1 (F := F)) Wv) : sProp 𝕄)
      ⊢ iprop(dat.arrays Fa ∗ Pipeline.unscopedRest spec0 c (fun b => StableHlo.after (hostOps1 (F := F)) Wv (Proc.devRef .tc b))) := by
    rw [held_ucRefs]
    exact sep_mono (arrays_of_arrBufs c dat hq0 hq1 hq2 hq3 (fun b => StableHlo.after (hostOps1 (F := F)) Wv (Proc.devRef .tc b)) Fa
      (fun w => (hF w).trans (hostOps1_keeps Wv w).symm)) .rfl
  have hrun := Pipeline.wp_seqs_then (Ix := Unit) (Name := ℕ) (U := UR sig nD τ) (Lvl := ℕ)
    (fun q => (cfgs q).toPCfg (Val := Elt F)) (defs₀ (F := F)) 𝒱₀ c (Pipeline.ucRefs τ sig) [] (K := Q')
    [hostOps1 (F := F)] hostOps1_uc hostOps1_fresh Wv
  rw [List.flatten_cons, List.flatten_nil, List.append_nil, List.map_cons, List.map_nil, List.append_nil, Pipeline.chain_nil, wp_pure] at hrun
  iintro ⟨Hk, Hb, HA, HR⟩
  ihave HH := hin $$ [HA HR]
  · isplitl [HA]; · iexact HA
    iexact HR
  iapply hrun $$ [Hb HH]
  · isplitl [Hb]; · iexact Hb
    iexact HH
  iintro ⟨Hb, HH⟩
  imodintro
  iapply Hk
  iapply hout
  iexact HH

end Cert.KernelIdeal.Hand
end
-- ==== Proof.KernelIdealFrame.lean ====
/-
  The program's run and its frame: every weakly fair execution terminates, nothing faults, and the two argument arrays end
  as they were launched.

  The feature array is read by the kernel through two windows and is never written; the labels are read by the two
  reshapes before the region and by nothing after it. The run below also names the contents of every other buffer at
  the end, for the value claim.
-/
import proofs.«161955_j76416058131342_1_alg».proof.Proof.KernelIdealLaunch
import proofs.«161955_j76416058131342_1_alg».proof.Proof.KernelIdealShare

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: every array of the pipeline at its final contents, every other unscoped buffer at the contents after the
    later host operations. -/
theorem run_main : θ_run defs (onTc (τ := τ) (main (F := F))) (s₀ m ρ) (RunPost m) :=
  run_main_of m ρ
    (fun c => arrays_of_arrBufs c (dats m 0 c) rfl rfl rfl rfl (V m c) _ (fun w => A_eq m c w))
    (fun c Q' => tail_after Variants.none c (dats m 0 c) rfl rfl rfl rfl (Wexit m c) _ (fun w => arrAt_exit m c w) Q')

/-- No host operation before the region writes the feature array or the labels. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation after the region writes the labels. -/
theorem Wfin_main_arg1 (c : Dev nD) : Wfin m c (Proc.devRef .tc main_arg1) = m ((c : Thread nD τ).loc main_arg1) := by
  unfold Wfin
  rw [StableHlo.after_of_forall_not_mem (b := Proc.devRef .tc main_arg1) _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide))),
    Wexit_of_ne m c main_arg1 (by decide) (by decide)]
  exact entry_main_arg1 m c

/-- The run read at the argument arrays and at the result. -/
theorem run_args : θ_run defs (onTc (τ := τ) (main (F := F))) ⟨m, fun _ => 0, ρ⟩ (fun r => ∀ c : Dev nD,
      r.2.mem ((c.tc : Thread nD τ).loc main_v13) = Wfin m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v13 (Pipeline.mem_restRefs_of main_v13 (by decide) (by decide)),
     ((h c).1 0).trans ((((dats m 0 c).arrAt_in 0 rfl _).trans (A_eq m c 0)).trans (entry_main_arg0 m c)),
     ((h c).2 main_arg1 (Pipeline.mem_restRefs_of main_arg1 (by decide) (by decide))).trans (Wfin_main_arg1 m c)⟩)
    (run_main m ρ)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_args m ρ)

end Cert.KernelIdeal.Hand

end
-- ==== Proof.KernelIdealBlocks.lean ====
/-
  The kernel's input blocks read at an index, at the ideal instance.

  The 16×16 grid is walked row-major: point t is (i, j) = (t / 16, t % 16). At point t the rows window hands the body rows
  512·i … 512·i + 511 of the feature matrix, the columns window rows 512·j … 512·j + 511 of the same matrix, and the two label
  windows the labels of those rows, the first as a [512,1] column of the labels recast [8192,1], the second as a [1,512] row of
  the labels recast [1,8192]. Neither recast writes the feature matrix, and a recast [8192] → [8192,1] or [1,8192] reads the
  label at the same position. A block's coordinate in its array is always (block index) × (block size) + (coordinate inside
  the block); the block indices are decided once over the 256 points.
-/
import proofs.«161955_j76416058131342_1_alg».proof.Proof.KernelIdealRuns
import proofs.«161955_j76416058131342_1_alg».proof.Proof.Payload
import proofs.«161955_j76416058131342_1_alg».proof.Proof.TileSums
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Cert.PairLoss Cert.KernelIdeal.PayloadValue
open Idealize.ShloMosaic Idealize.ShloMosaic.TcCoe Idealize.ShloMosaic.ValueIdx Idealize.SL.Sem

variable (m : (ℓ : Loc nD τ sig) → Buf (Elt Ideal) ℓ)

/-- The windows' block indices at grid point t = (t / 16, t % 16): the two feature windows and the two label windows. -/
theorem idx_facts : ∀ t : Fin cfg0.N,
    win0_0.index t 0 = t.val / 16 ∧ win0_0.index t 1 = 0 ∧ win0_1.index t 0 = t.val % 16 ∧ win0_1.index t 1 = 0
      ∧ win0_2.index t 0 = t.val / 16 ∧ win0_2.index t 1 = 0 ∧ win0_3.index t 0 = 0 ∧ win0_3.index t 1 = t.val % 16 :=
  (by decide +kernel : ∀ t : Fin grid0.N, _)

/-- Neither label reshape writes the feature matrix: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- The labels as a column [8192,1], as the region finds them: the launch labels recast. -/
theorem V_main_v0 (c : Dev nD) :
    (V m c main_v0 : S8192x1.Idx → BitVec 32)
      = shapeCast S8192x1 (m ((c : Thread nD τ).loc main_arg1) : S8192.Idx → BitVec 32) shapeCasts_S8192_S8192x1 := by
  show StableHlo.after (List.flatten [hostOps0]) (fun b => m (c, b)) (Proc.devRef .tc main_v0) = _
  simp only [List.flatten_cons, List.flatten_nil, List.append_nil]
  after_results
  rfl

/-- The labels as a row [1,8192], as the region finds them: the launch labels recast. -/
theorem V_main_v1 (c : Dev nD) :
    (V m c main_v1 : S1x8192.Idx → BitVec 32)
      = shapeCast S1x8192 (m ((c : Thread nD τ).loc main_arg1) : S8192.Idx → BitVec 32) shapeCasts_S8192_S1x8192 := by
  show StableHlo.after (List.flatten [hostOps0]) (fun b => m (c, b)) (Proc.devRef .tc main_v1) = _
  simp only [List.flatten_cons, List.flatten_nil, List.append_nil]
  after_results
  rfl

/-- The [8192] labels cast to a column read, at (p, u), the label at p. -/
theorem labCol_apply {α : Type} (v : S8192.Idx → α) (p : Fin 8192) (u : Fin 1) :
    shapeCast S8192x1 v shapeCasts_S8192_S8192x1 (ix2 p u) = v (ix1 p) :=
  shapeCast_apply v shapeCasts_S8192_S8192x1 _ _ (by
    have hu : u.val = 0 := by omega
    rw [Shape.rowMajor_val_two, Shape.rowMajor_val_one]
    show p.val = p.val * 1 + u.val
    rw [hu, Nat.mul_one, Nat.add_zero])

/-- The [8192] labels cast to a row read, at (u, q), the label at q. -/
theorem labRow_apply {α : Type} (v : S8192.Idx → α) (u : Fin 1) (q : Fin 8192) :
    shapeCast S1x8192 v shapeCasts_S8192_S1x8192 (ix2 u q) = v (ix1 q) :=
  shapeCast_a_1a_apply v shapeCasts_S8192_S1x8192 u q

/-- The rows window's block at point t, at (a, f), is the feature matrix at row 512·(t / 16) + a, feature f. -/
theorem iblk0_apply (c : Dev nD) (t : Fin cfg0.N) (hi : t.val / 16 < 16) (a : Fin 512) (f : Fin 128) :
    (iblk m c 0 t : Vec Ideal S512x128 .f32) (ix2 a f)
      = (m ((c : Thread nD τ).loc main_arg0) : S8192x128.Idx → EReal) (ix2 (tileRow ⟨t.val / 16, hi⟩ a) f) := by
  have hf := idx_facts t
  unfold iblk
  rw [View.read_apply]
  show V m c main_arg0 _ = _
  rw [V_main_arg0]
  congr 1
  funext d
  apply Fin.ext
  match d with
  | ⟨0, _⟩ => show win0_0.index t 0 * 512 + 1 * a.val = 512 * (t.val / 16) + a.val; rw [hf.1]; omega
  | ⟨1, _⟩ => show win0_0.index t 1 * 128 + 1 * f.val = f.val; rw [hf.2.1]; omega

/-- The columns window's block at point t, at (b, f), is the feature matrix at row 512·(t % 16) + b, feature f. -/
theorem iblk1_apply (c : Dev nD) (t : Fin cfg0.N) (hj : t.val % 16 < 16) (b : Fin 512) (f : Fin 128) :
    (iblk m c 1 t : Vec Ideal S512x128 .f32) (ix2 b f)
      = (m ((c : Thread nD τ).loc main_arg0) : S8192x128.Idx → EReal) (ix2 (tileRow ⟨t.val % 16, hj⟩ b) f) := by
  have hf := idx_facts t
  unfold iblk
  rw [View.read_apply]
  show V m c main_arg0 _ = _
  rw [V_main_arg0]
  congr 1
  funext d
  apply Fin.ext
  match d with
  | ⟨0, _⟩ => show win0_1.index t 0 * 512 + 1 * b.val = 512 * (t.val % 16) + b.val; rw [hf.2.2.1]; omega
  | ⟨1, _⟩ => show win0_1.index t 1 * 128 + 1 * f.val = f.val; rw [hf.2.2.2.1]; omega

/-- Row a of the rows window's block at point t is row 512·(t / 16) + a of the feature matrix. -/
theorem iblk0_row (c : Dev nD) (t : Fin cfg0.N) (hi : t.val / 16 < 16) (a : Fin 512) :
    rowOf (iblk m c 0 t : Vec Ideal S512x128 .f32) a
      = row (m ((c : Thread nD τ).loc main_arg0)) (tileRow ⟨t.val / 16, hi⟩ a) :=
  funext fun f => iblk0_apply m c t hi a f

/-- Row b of the columns window's block at point t is row 512·(t % 16) + b of the feature matrix. -/
theorem iblk1_row (c : Dev nD) (t : Fin cfg0.N) (hj : t.val % 16 < 16) (b : Fin 512) :
    rowOf (iblk m c 1 t : Vec Ideal S512x128 .f32) b
      = row (m ((c : Thread nD τ).loc main_arg0)) (tileRow ⟨t.val % 16, hj⟩ b) :=
  funext fun f => iblk1_apply m c t hj b f

/-- The rows' label block at point t, at (a, 0), is the label of row 512·(t / 16) + a. -/
theorem iblk2_lab (c : Dev nD) (t : Fin cfg0.N) (hi : t.val / 16 < 16) (a : Fin 512) :
    (iblk m c 2 t : Vec Ideal S512x1 .i32) (ix2 a (0 : Fin 1))
      = (m ((c : Thread nD τ).loc main_arg1)) (ix1 (tileRow ⟨t.val / 16, hi⟩ a)) := by
  have hf := idx_facts t
  unfold iblk
  rw [View.read_apply]
  show (V m c main_v0 : S8192x1.Idx → BitVec 32) _ = _
  rw [V_main_v0]
  refine (congrArg _ ?_).trans (labCol_apply _ (tileRow ⟨t.val / 16, hi⟩ a) (0 : Fin 1))
  funext d
  apply Fin.ext
  match d with
  | ⟨0, _⟩ => show win0_2.index t 0 * 512 + 1 * a.val = 512 * (t.val / 16) + a.val; rw [hf.2.2.2.2.1]; omega
  | ⟨1, _⟩ => show win0_2.index t 1 * 1 + 1 * 0 = 0; rw [hf.2.2.2.2.2.1]

/-- The columns' label block at point t, at (0, b), is the label of row 512·(t % 16) + b. -/
theorem iblk3_lab (c : Dev nD) (t : Fin cfg0.N) (hj : t.val % 16 < 16) (b : Fin 512) :
    (iblk m c 3 t : Vec Ideal S1x512 .i32) (ix2 (0 : Fin 1) b)
      = (m ((c : Thread nD τ).loc main_arg1)) (ix1 (tileRow ⟨t.val % 16, hj⟩ b)) := by
  have hf := idx_facts t
  unfold iblk
  rw [View.read_apply]
  show (V m c main_v1 : S1x8192.Idx → BitVec 32) _ = _
  rw [V_main_v1]
  refine (congrArg _ ?_).trans (labRow_apply _ (0 : Fin 1) (tileRow ⟨t.val % 16, hj⟩ b))
  funext d
  apply Fin.ext
  match d with
  | ⟨0, _⟩ => show win0_3.index t 0 * 1 + 1 * 0 = 0; rw [hf.2.2.2.2.2.2.1]
  | ⟨1, _⟩ => show win0_3.index t 1 * 512 + 1 * b.val = 512 * (t.val % 16) + b.val; rw [hf.2.2.2.2.2.2.2]; omega

end Cert.KernelIdeal.Hand

end
-- ==== Proof.KernelIdealTail.lean ====
/-
  The sixteen host operations after the region compute the loss from the two one-cell accumulators and the feature matrix.

  With the feature array at X and the accumulators' one cell at o1 and o2 when the region is left, the operations are:
  X*X, its sum over both axes from the zero initial value (Σ_{p,f} X(p,f)²), that sum divided by 2²⁰; each accumulator
  reshaped from one cell to a scalar (a constant function stays that constant) and divided by 2²⁶, the first quotient
  negated; the two added; 0.01 times the mean of squares added. So the result, at its one index, is
      −o1/2²⁶ + o2/2²⁶ + 0.01·(Σ_{p,f} X(p,f)²)/2²⁰,
  which is the loss of Spec.lean when o1 and o2 are the double sums of the two summands. The float constants stay the
  binary words the program spells; only the zero word is read (it is 0). The feature array is written by no operation
  before the region and not by the region, so X is the launched array.
-/
import proofs.«161955_j76416058131342_1_alg».proof.Proof.KernelIdealLaunch
import proofs.«161955_j76416058131342_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.Hand

open Cert.KernelIdeal Cert.KernelIdeal.Gen Cert.PairLoss
open Idealize.ShloMosaic Idealize.ShloMosaic.TcCoe Idealize.ShloMosaic.ValueIdx Idealize.SL.Sem

variable (m : (ℓ : Loc nD τ sig) → Buf (Elt Ideal) ℓ)

/-! ## The scalar tail as a pure term, read at its one index -/

/-- The sum of X*X over both axes, from the zero initial value, is the double sum of the squares. -/
theorem tail_sumsq (X : FVec Ideal S8192x128 .f32) (i : S_.Idx) :
    Host.reduceAdd (mulf X X) (constant (F := Ideal) S_ .f32 0x00000000#32) reducesTo_S8192x128_S_d0_1 h_S_ i
      = ∑ p : Fin 8192, ∑ f : Fin 128, X (ix2 p f) * X (ix2 p f) := by
  simp only [Host.reduceAdd, Ideal.hostReduceAdd_def]
  refine (Ideal.hostReduceAdd_total reducesTo_S8192x128_S_d0_1 (fun b => b.elim0) (mulf X X) _ i).trans ?_
  rw [sum_idx2]
  show Ideal.ofBits .f32 0x00000000#32 + _ = _
  rw [Ideal.ofBits_zero_f32, zero_add]
  rfl

/-- The sixteen operations' composed term of the two accumulators' scalars a, b and the feature matrix X, at the one
    index of the scalar result: −a/2²⁶ + b/2²⁶ + 0.01·(Σ X²)/2²⁰. -/
theorem tail_term (X : FVec Ideal S8192x128 .f32) (a b : FVec Ideal S_ .f32) (i : S_.Idx) :
    addf (addf (Host.negf (Host.divf a (constant (F := Ideal) S_ .f32 0x4C800000#32)))
          (Host.divf b (constant (F := Ideal) S_ .f32 0x4C800000#32)))
        (mulf (constant (F := Ideal) S_ .f32 0x3C23D70A#32)
          (Host.divf (Host.reduceAdd (mulf X X) (constant (F := Ideal) S_ .f32 0x00000000#32) reducesTo_S8192x128_S_d0_1 h_S_)
            (constant (F := Ideal) S_ .f32 0x49800000#32))) i
      = (-(Ideal.div (a i) (Ideal.ofBits .f32 0x4C800000#32)) + Ideal.div (b i) (Ideal.ofBits .f32 0x4C800000#32))
          + Ideal.ofBits .f32 0x3C23D70A#32
            * Ideal.div (∑ p : Fin 8192, ∑ f : Fin 128, X (ix2 p f) * X (ix2 p f)) (Ideal.ofBits .f32 0x49800000#32) := by
  show (-(Ideal.div (a i) (Ideal.ofBits .f32 0x4C800000#32)) + Ideal.div (b i) (Ideal.ofBits .f32 0x4C800000#32))
          + Ideal.ofBits .f32 0x3C23D70A#32
            * Ideal.div (Host.reduceAdd (mulf X X) (constant (F := Ideal) S_ .f32 0x00000000#32) reducesTo_S8192x128_S_d0_1 h_S_ i)
                (Ideal.ofBits .f32 0x49800000#32) = _
  rw [tail_sumsq]

/-! ## The tail over the exit contents -/

/-- No operation before the region writes the feature array, and the region does not: at the exit it is as launched. -/
theorem Wexit_arg0 (c : Dev nD) :
    Wexit m c (Proc.devRef .tc main_arg0) = m ((c : Thread nD τ).loc main_arg0) :=
  (Wexit_of_ne m c main_arg0 (by decide) (by decide)).trans
    (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.reshape_writes, Finset.mem_singleton]
      repeat' apply And.intro
      all_goals exact StableHlo.devRef_ne_of_ne (by decide))))

/-- The program's result from the exit contents: with the feature array at X and the two accumulators' one cell at
    o1 and o2, the result is −o1/2²⁶ + o2/2²⁶ + 0.01·(Σ_{p,f} X(p,f)²)/2²⁰ at its one index. -/
theorem tail_value_of (c : Dev nD) (o1 o2 : EReal) (X : S8192x128.Idx → EReal)
    (h0 : (Wexit m c (Proc.devRef .tc main_arg0) : S8192x128.Idx → EReal) = X)
    (h1 : (Wexit m c (Proc.devRef .tc main_v2_0) : S1x1.Idx → EReal) = fun _ => o1)
    (h2 : (Wexit m c (Proc.devRef .tc main_v2_1) : S1x1.Idx → EReal) = fun _ => o2) :
    (Wfin m c (Proc.devRef .tc main_v13) : S_.Idx → EReal)
      = fun _ => (-(Ideal.div o1 (Ideal.ofBits .f32 0x4C800000#32)) + Ideal.div o2 (Ideal.ofBits .f32 0x4C800000#32))
          + Ideal.ofBits .f32 0x3C23D70A#32
            * Ideal.div (∑ p : Fin 8192, ∑ f : Fin 128, X (ix2 p f) * X (ix2 p f)) (Ideal.ofBits .f32 0x49800000#32) := by
  unfold Wfin
  show StableHlo.after hostOps1 _ (Proc.devRef .tc main_v13) = _
  after_results
  rw [h0, h1, h2]
  funext i
  exact tail_term X (fun _ => o1) (fun _ => o2) i

/-- The program's result at its end: with the two accumulators' one cell at o1 and o2 when the region is left, the
    result is −o1/2²⁶ + o2/2²⁶ + 0.01·(Σ_{p,f} X(p,f)²)/2²⁰ of the launched feature array X, at its one index. -/
theorem tail_value (c : Dev nD) (o1 o2 : EReal)
    (h1 : (Wexit m c (Proc.devRef .tc main_v2_0) : S1x1.Idx → EReal) = fun _ => o1)
    (h2 : (Wexit m c (Proc.devRef .tc main_v2_1) : S1x1.Idx → EReal) = fun _ => o2) :
    (Wfin m c (Proc.devRef .tc main_v13) : S_.Idx → EReal)
      = fun _ => (-(Ideal.div o1 (Ideal.ofBits .f32 0x4C800000#32)) + Ideal.div o2 (Ideal.ofBits .f32 0x4C800000#32))
          + Ideal.ofBits .f32 0x3C23D70A#32
            * Ideal.div (∑ p : Fin 8192, ∑ f : Fin 128,
                @HMul.hMul EReal EReal EReal _ (m ((c : Thread nD τ).loc main_arg0) (ix2 p f))
                  (m ((c : Thread nD τ).loc main_arg0) (ix2 p f)))
                (Ideal.ofBits .f32 0x49800000#32) :=
  tail_value_of m c o1 o2 _ (Wexit_arg0 m c) h1 h2

/-- With the accumulators at the two double sums of the summands, the result is the loss of the launched arrays. -/
theorem tail_value_loss (c : Dev nD) (y : Lab)
    (h1 : (Wexit m c (Proc.devRef .tc main_v2_0) : S1x1.Idx → EReal)
      = fun _ => ∑ p : Fin 8192, ∑ q : Fin 8192, term1 (m ((c : Thread nD τ).loc main_arg0)) y p q)
    (h2 : (Wexit m c (Proc.devRef .tc main_v2_1) : S1x1.Idx → EReal)
      = fun _ => ∑ p : Fin 8192, ∑ q : Fin 8192, term2 (m ((c : Thread nD τ).loc main_arg0)) y p q) :
    (Wfin m c (Proc.devRef .tc main_v13) : S_.Idx → EReal) = fun _ => loss (m ((c : Thread nD τ).loc main_arg0)) y :=
  tail_value_of m c _ _ _ (Wexit_arg0 m c) h1 h2

end Cert.KernelIdeal.Hand

end
-- ==== Proof.KernelIdealValue.lean ====
/-
  The idealized kernel's result is the pairwise loss of the argument arrays.

  At grid point t = 16·i + j the four input blocks are rows 512·i … of the feature matrix, rows 512·j … of it again, and
  the labels of those rows; so the tile's sum at t is the sum of the pair summands over rows 512·i + a and 512·j + b. The
  accumulators end at the sum over the 256 points, which regroups (in any order: the extended reals under addition are a
  commutative monoid) into the double sum over all pairs of the 8192 rows. The host operations after the region then
  form −S₁/2²⁶ + S₂/2²⁶ + 0.01·(Σ X²)/2²⁰.
-/
import proofs.«161955_j76416058131342_1_alg».proof.Proof.KernelIdealAcc
import proofs.«161955_j76416058131342_1_alg».proof.Proof.KernelIdealFrame
import proofs.«161955_j76416058131342_1_alg».proof.Proof.KernelIdealBlocks
import proofs.«161955_j76416058131342_1_alg».proof.Proof.KernelIdealTail

set_option maxRecDepth 16384

noncomputable section

open scoped BigOperators

namespace Cert.KernelIdeal.Hand

open Cert.KernelIdeal Cert.KernelIdeal.Gen Cert.PairLoss Cert.KernelIdeal.PayloadValue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first tile sum at grid point t = 16·i + j is the sum of the first summands over rows 512·i + a, 512·j + b. -/
theorem tile1_eq (c : Dev nD) (t : Fin 256) :
    tile1 m c t.val = ∑ a : Fin 512, ∑ b : Fin 512,
      term1 (m ((c : Thread nD τ).loc main_arg0)) (m ((c : Thread nD τ).loc main_arg1))
        (tileRow ⟨t.val / 16, by omega⟩ a) (tileRow ⟨t.val % 16, by omega⟩ b) := by
  have h : t.val < cfg0.N := by rw [show cfg0.N = 256 from N_0]; exact t.isLt
  have hi : t.val / 16 < 16 := by omega
  have hj : t.val % 16 < 16 := by omega
  unfold tile1
  rw [dif_pos h]
  refine Finset.sum_congr rfl fun a _ => Finset.sum_congr rfl fun b _ => ?_
  rw [iblk0_row m c ⟨t.val, h⟩ hi a, iblk1_row m c ⟨t.val, h⟩ hj b,
    iblk2_lab m c ⟨t.val, h⟩ hi a, iblk3_lab m c ⟨t.val, h⟩ hj b]
  rfl

theorem tile2_eq (c : Dev nD) (t : Fin 256) :
    tile2 m c t.val = ∑ a : Fin 512, ∑ b : Fin 512,
      term2 (m ((c : Thread nD τ).loc main_arg0)) (m ((c : Thread nD τ).loc main_arg1))
        (tileRow ⟨t.val / 16, by omega⟩ a) (tileRow ⟨t.val % 16, by omega⟩ b) := by
  have h : t.val < cfg0.N := by rw [show cfg0.N = 256 from N_0]; exact t.isLt
  have hi : t.val / 16 < 16 := by omega
  have hj : t.val % 16 < 16 := by omega
  unfold tile2
  rw [dif_pos h]
  refine Finset.sum_congr rfl fun a _ => Finset.sum_congr rfl fun b _ => ?_
  rw [iblk0_row m c ⟨t.val, h⟩ hi a, iblk1_row m c ⟨t.val, h⟩ hj b,
    iblk2_lab m c ⟨t.val, h⟩ hi a, iblk3_lab m c ⟨t.val, h⟩ hj b]
  rfl

/-- The sum of the tile sums over the grid is the double sum over all pairs of rows. -/
theorem sum_tile1 (c : Dev nD) :
    (∑ s ∈ Finset.range 256, tile1 m c s)
      = ∑ p : Fin 8192, ∑ q : Fin 8192, term1 (m ((c : Thread nD τ).loc main_arg0)) (m ((c : Thread nD τ).loc main_arg1)) p q := by
  rw [sum_range_256, ← sum_tiles, ← sum_grid]
  exact Finset.sum_congr rfl fun t _ => tile1_eq m c t

theorem sum_tile2 (c : Dev nD) :
    (∑ s ∈ Finset.range 256, tile2 m c s)
      = ∑ p : Fin 8192, ∑ q : Fin 8192, term2 (m ((c : Thread nD τ).loc main_arg0)) (m ((c : Thread nD τ).loc main_arg1)) p q := by
  rw [sum_range_256, ← sum_tiles, ← sum_grid]
  exact Finset.sum_congr rfl fun t _ => tile2_eq m c t

/-- The program's result at its end is the loss of the argument arrays. -/
theorem result_loss (c : Dev nD) :
    (Wfin m c (Proc.devRef .tc main_v13) : S_.Idx → EReal)
      = fun _ => loss (m ((c : Thread nD τ).loc main_arg0)) (m ((c : Thread nD τ).loc main_arg1)) := by
  exact tail_value_loss m c (m ((c : Thread nD τ).loc main_arg1))
    ((exit_acc1 m c).trans (by rw [sum_tile1])) ((exit_acc2 m c).trans (by rw [sum_tile2]))

/-- Every weakly fair execution of the idealized kernel terminates with its result at the loss of its argument arrays,
    and the arguments unchanged. -/
theorem run_loss : θ_run defs (onTc (τ := τ) (main (F := Ideal))) ⟨m, fun _ => 0, ρ⟩ (fun r => ∀ c : Dev nD,
      r.2.mem ((c.tc : Thread nD τ).loc main_v13)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_loss m c), (h c).2⟩) (run_args m ρ)

end Cert.KernelIdeal.Hand

end
-- ==== Proof.RefValue.lean ====
/-
  The reference program's result is the pairwise loss of Spec.lean.

  Read stage by stage at an index, over the extended reals:
    the row sums of X*X at row p are            sqr (row X p)            (the zero initial value added, Σ over the 128 features);
    the Gram product X·Xᵀ at (p, q) is           dotr (row X p) (row X q)  (Σ_f X(p,f)·X(q,f));
    max (sq p + sq q − 2·gram(p,q)) 0 is         distr (row X p) (row X q);
    the label comparison at (p, q) compares label q with label p, which is the comparison of label p with label q
    (the comparison "differs" is symmetric);
    the two selects against zero are term1 X y p q = log (1.01 − exp (−dist)) where the labels differ, and
    term2 X y p q = dist where they agree;
    each sum over both axes of an 8192×8192 array is the zero initial value plus the sum over all index pairs, that is
    the double sum Σ_p Σ_q; likewise Σ_p Σ_f X(p,f)² for the regularizer;
    the scalar tail −(Σ term1)/2²⁶ + (Σ term2)/2²⁶ + 0.01·(Σ X²)/2²⁰ is the loss.
  The host's exponential, logarithm, negation and quotient are the ideal instance's functions; the float constants stay
  the binary words the program spells, only the zero word is read (it is 0).
-/
import proofs.«161955_j76416058131342_1_alg».proof.Proof.Spec
import proofs.«161955_j76416058131342_1_alg».proof.Proof.Gen.ReferenceIdeal.Run
import proofs.«161955_j76416058131342_1_alg».proof.Proof.Gen.ReferenceIdeal.Read
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Cert.PairLoss

/-! ## Index equations: each stage's read index at the pair (p, q) is the coordinate it names -/

/-- The row reduction's read index at row p and feature k is the index (p, k). -/
theorem idx_v4 (p : Fin 8192) (k : Fin 128) : idx_main_v4 (ix1 p) k = ix2 p k :=
  funext fun a => Fin.ext (by match a with | ⟨0, _⟩ => rfl | ⟨1, _⟩ => rfl)

/-- The Gram product's left read index at (p, q) and feature k is (p, k). -/
theorem lidx_v5 (p q : Fin 8192) (k : Fin 128) : lidx_main_v5 (ix2 p q) k = ix2 p k :=
  funext fun a => Fin.ext (by match a with | ⟨0, _⟩ => rfl | ⟨1, _⟩ => rfl)

/-- The Gram product's right read index at (p, q) and feature k is (q, k). -/
theorem ridx_v5 (p q : Fin 8192) (k : Fin 128) : ridx_main_v5 (ix2 p q) k = ix2 q k :=
  funext fun a => Fin.ext (by match a with | ⟨0, _⟩ => rfl | ⟨1, _⟩ => rfl)

/-- The column broadcast of the squared norms reads row p at (p, q). -/
theorem idx_v6_v8 (p q : Fin 8192) : idx_main_v6 (idx_main_v8 (ix2 p q)) = ix1 p :=
  funext fun a => Fin.ext (by match a with | ⟨0, _⟩ => rfl)

/-- The row broadcast of the squared norms reads row q at (p, q). -/
theorem idx_v7_v9 (p q : Fin 8192) : idx_main_v7 (idx_main_v9 (ix2 p q)) = ix1 q :=
  funext fun a => Fin.ext (by match a with | ⟨0, _⟩ => rfl)

/-- The row broadcast of the labels reads label q at (p, q). -/
theorem idx_v16_v18 (p q : Fin 8192) : idx_main_v16 (idx_main_v18 (ix2 p q)) = ix1 q :=
  funext fun a => Fin.ext (by match a with | ⟨0, _⟩ => rfl)

/-- The column broadcast of the labels reads label p at (p, q). -/
theorem idx_v17_v19 (p q : Fin 8192) : idx_main_v17 (idx_main_v19 (ix2 p q)) = ix1 p :=
  funext fun a => Fin.ext (by match a with | ⟨0, _⟩ => rfl)

/-! ## The stages at a pair of rows -/

/-- The squared norms: the row sum of X*X at row p. -/
theorem sq_apply (X : FVec Ideal S8192x128 .f32) (p : Fin 8192) :
    val_main_v4 (F := Ideal) X (ix1 p) = sqr (row X p) := by
  rw [val_main_v4_apply, val_main_cst_1_apply]
  simp only [val_main_v3_apply, idx_v4, Ideal.ofBits_def, Ideal.ofBits_zero_f32, Ideal.mulf_def, zero_add]
  rfl

/-- The Gram matrix at (p, q) is the inner product of rows p and q. -/
theorem gram_apply (X : FVec Ideal S8192x128 .f32) (p q : Fin 8192) :
    val_main_v5 (F := Ideal) X (ix2 p q) = dotr (row X p) (row X q) := by
  rw [val_main_v5_apply]
  simp only [lidx_v5, ridx_v5]
  rfl

/-- The clipped squared distance at (p, q). -/
theorem dist_apply (X : FVec Ideal S8192x128 .f32) (p q : Fin 8192) :
    val_main_v15 (F := Ideal) X (ix2 p q) = distr (row X p) (row X q) := by
  rw [val_main_v15_apply, val_main_v13_apply, val_main_v14_apply, val_main_cst_3_apply, val_main_v10_apply,
    val_main_v12_apply, val_main_v11_apply, val_main_cst_2_apply, val_main_v8_apply, val_main_v6_apply,
    val_main_v9_apply, val_main_v7_apply, idx_v6_v8, idx_v7_v9, sq_apply, sq_apply, gram_apply]
  simp only [Ideal.ofBits_def, Ideal.ofBits_zero_f32, Ideal.maximumf_def, Ideal.subf_def, Ideal.addf_def, Ideal.mulf_def]
  rfl

/-- The label comparison at (p, q): label q against label p. -/
theorem neq_apply (y : IVec S8192 32) (p q : Fin 8192) :
    val_main_v20 (F := Ideal) y (ix2 p q) = IntOp.cmpi .ne (y (ix1 q)) (y (ix1 p)) := by
  rw [val_main_v20_apply, val_main_v18_apply, val_main_v16_apply, val_main_v19_apply, val_main_v17_apply,
    idx_v16_v18, idx_v17_v19]

/-- The first selected array at (p, q) is the first summand of the pair. -/
theorem term1_apply (X : FVec Ideal S8192x128 .f32) (y : IVec S8192 32) (p q : Fin 8192) :
    val_main_v26 (F := Ideal) X y (ix2 p q) = term1 X y p q := by
  rw [val_main_v26_apply, val_main_call0_v1_apply, val_main_call0_v0_apply, val_main_cst_5_apply,
    val_main_v25_apply, val_main_v24_apply, val_main_v23_apply, val_main_cst_4_apply, val_main_v22_apply,
    val_main_v21_apply, neq_apply, dist_apply, cmpi_ne_comm]
  simp only [Ideal.ofBits_def, Ideal.ofBits_zero_f32, Ideal.hostUnary_log_def, Ideal.hostUnary_exp_def,
    Ideal.hostNegf_def, Ideal.negf_def, Ideal.subf_def]
  rfl

/-- The second selected array at (p, q) is the second summand of the pair. -/
theorem term2_apply (X : FVec Ideal S8192x128 .f32) (y : IVec S8192 32) (p q : Fin 8192) :
    val_main_v30 (F := Ideal) X y (ix2 p q) = term2 X y p q := by
  rw [val_main_v30_apply, val_main_call1_v1_apply, val_main_call1_v0_apply, val_main_cst_8_apply,
    neq_apply, dist_apply, cmpi_ne_comm]
  simp only [Ideal.ofBits_def, Ideal.ofBits_zero_f32]
  rfl

/-! ## The three sums and the scalar result -/

/-- The sum of the first selected array over both axes is the double sum of the first summands. -/
theorem sum1_apply (X : FVec Ideal S8192x128 .f32) (y : IVec S8192 32) (i : S_.Idx) :
    val_main_v27 (F := Ideal) X y i = ∑ p : Fin 8192, ∑ q : Fin 8192, term1 X y p q := by
  rw [val_main_v27_apply, val_main_cst_6_apply, Ideal.ofBits_def, Ideal.ofBits_zero_f32, zero_add, sum_idx2]
  exact Finset.sum_congr rfl fun p _ => Finset.sum_congr rfl fun q _ => term1_apply X y p q

/-- The sum of the second selected array over both axes is the double sum of the second summands. -/
theorem sum2_apply (X : FVec Ideal S8192x128 .f32) (y : IVec S8192 32) (i : S_.Idx) :
    val_main_v31 (F := Ideal) X y i = ∑ p : Fin 8192, ∑ q : Fin 8192, term2 X y p q := by
  rw [val_main_v31_apply, val_main_cst_9_apply, Ideal.ofBits_def, Ideal.ofBits_zero_f32, zero_add, sum_idx2]
  exact Finset.sum_congr rfl fun p _ => Finset.sum_congr rfl fun q _ => term2_apply X y p q

/-- The sum of X*X over both axes is the double sum of the squares. -/
theorem sumsq_apply (X : FVec Ideal S8192x128 .f32) (i : S_.Idx) :
    val_main_v1 (F := Ideal) X i = ∑ p : Fin 8192, ∑ f : Fin 128, X (ix2 p f) * X (ix2 p f) := by
  rw [val_main_v1_apply, val_main_cst_apply, Ideal.ofBits_def, Ideal.ofBits_zero_f32, zero_add, sum_idx2]
  rfl

/-- The last stage, at its one index, is the loss. -/
theorem stage_apply (X : FVec Ideal S8192x128 .f32) (y : IVec S8192 32) (i : S_.Idx) :
    val_main_v35 (F := Ideal) X y i = loss X y := by
  rw [val_main_v35_apply, val_main_v33_apply, val_main_v29_apply, val_main_v28_apply, val_main_cst_7_apply,
    val_main_v32_apply, val_main_cst_10_apply, val_main_v34_apply, val_main_cst_11_apply, val_main_v2_apply,
    val_main_cst_0_apply, sum1_apply, sum2_apply, sumsq_apply]
  simp only [Ideal.ofBits_def, Ideal.addf_def, Ideal.mulf_def, Ideal.hostDivf_def, Ideal.hostNegf_def, Ideal.negf_def]
  rfl

/-- The last stage is the loss at every index of the scalar result. -/
theorem stage_eq (X : FVec Ideal S8192x128 .f32) (y : IVec S8192 32) :
    val_main_v35 (F := Ideal) X y = fun _ => loss X y :=
  funext fun i => stage_apply X y i

/-- The run's composed result term of the feature matrix and the labels is the loss, at the one index of the scalar. -/
theorem result_eq (X : FVec Ideal S8192x128 .f32) (y : IVec S8192 32) :
    addf (addf (Host.negf (Host.divf (Host.reduceAdd (select (cmpi .ne (broadcastInDim S8192x8192 ![0, 1] bcast_S1x8192_S8192x8192_0_1 (broadcastInDim S1x8192 ![1] bcast_S8192_S1x8192_1 y)) (broadcastInDim S8192x8192 ![0, 1] bcast_S8192x1_S8192x8192_0_1 (broadcastInDim S8192x1 ![0] bcast_S8192_S8192x1_0 y))) (Host.log (subf (broadcastInDim S8192x8192 ![] bcast_S_S8192x8192 (constant S_ .f32 0x3F8147AE#32)) (Host.exp (Host.negf (maximumf (subf (addf (broadcastInDim S8192x8192 ![0, 1] bcast_S8192x1_S8192x8192_0_1 (broadcastInDim S8192x1 ![0] bcast_S8192_S8192x1_0 (Host.reduceAdd (mulf X X) (constant S_ .f32 0x00000000#32) reducesTo_S8192x128_S8192_d1 h_S_))) (broadcastInDim S8192x8192 ![0, 1] bcast_S1x8192_S8192x8192_0_1 (broadcastInDim S1x8192 ![1] bcast_S8192_S1x8192_1 (Host.reduceAdd (mulf X X) (constant S_ .f32 0x00000000#32) reducesTo_S8192x128_S8192_d1 h_S_)))) (mulf (broadcastInDim S8192x8192 ![] bcast_S_S8192x8192 (constant S_ .f32 0x40000000#32)) (Host.dotGeneral dot_S8192x128_S8192x128_S8192x8192_1_1_0_0_n_n none X X))) (broadcastInDim S8192x8192 ![] bcast_S_S8192x8192 (constant S_ .f32 0x00000000#32))))))) (broadcastInDim S8192x8192 ![] bcast_S_S8192x8192 (id (constant S_ .f32 0x00000000#32)))) (constant S_ .f32 0x00000000#32) reducesTo_S8192x8192_S_d0_1 h_S_) (constant S_ .f32 0x4C800000#32))) (Host.divf (Host.reduceAdd (select (cmpi .ne (broadcastInDim S8192x8192 ![0, 1] bcast_S1x8192_S8192x8192_0_1 (broadcastInDim S1x8192 ![1] bcast_S8192_S1x8192_1 y)) (broadcastInDim S8192x8192 ![0, 1] bcast_S8192x1_S8192x8192_0_1 (broadcastInDim S8192x1 ![0] bcast_S8192_S8192x1_0 y))) (broadcastInDim S8192x8192 ![] bcast_S_S8192x8192 (id (constant S_ .f32 0x00000000#32))) (maximumf (subf (addf (broadcastInDim S8192x8192 ![0, 1] bcast_S8192x1_S8192x8192_0_1 (broadcastInDim S8192x1 ![0] bcast_S8192_S8192x1_0 (Host.reduceAdd (mulf X X) (constant S_ .f32 0x00000000#32) reducesTo_S8192x128_S8192_d1 h_S_))) (broadcastInDim S8192x8192 ![0, 1] bcast_S1x8192_S8192x8192_0_1 (broadcastInDim S1x8192 ![1] bcast_S8192_S1x8192_1 (Host.reduceAdd (mulf X X) (constant S_ .f32 0x00000000#32) reducesTo_S8192x128_S8192_d1 h_S_)))) (mulf (broadcastInDim S8192x8192 ![] bcast_S_S8192x8192 (constant S_ .f32 0x40000000#32)) (Host.dotGeneral dot_S8192x128_S8192x128_S8192x8192_1_1_0_0_n_n none X X))) (broadcastInDim S8192x8192 ![] bcast_S_S8192x8192 (constant S_ .f32 0x00000000#32)))) (constant S_ .f32 0x00000000#32) reducesTo_S8192x8192_S_d0_1 h_S_) (constant S_ .f32 0x4C800000#32))) (mulf (constant S_ .f32 0x3C23D70A#32) (Host.divf (Host.reduceAdd (mulf X X) (constant S_ .f32 0x00000000#32) reducesTo_S8192x128_S_d0_1 h_S_) (constant S_ .f32 0x49800000#32)))
      = fun _ => Cert.PairLoss.loss X y :=
  (val_main_v35_eq (F := Ideal) X y).trans (stage_eq X y)

/-- Every weakly fair execution of the reference terminates with its result at the loss of its argument arrays, and
    the arguments unchanged. -/
theorem run_loss (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v35)
            = (fun _ => Cert.PairLoss.loss
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono
    (fun _ h c => ⟨(h c).1.trans (result_eq _ _), (h c).2⟩)
    (Cert.ReferenceIdeal.Value.run (F := Ideal) m ρ)

end Cert.ReferenceIdeal.RefValue

end
-- ==== Proof.lean ====
/-
  The certificate's five claims.

  The kernel tiles the 8192 × 8192 matrix of row pairs into a 16 × 16 grid of 512 × 512 tiles; at each tile it forms the
  clipped squared distances of the tile's row pairs by the Gram identity and adds, into two one-cell accumulators, the
  tile's sums of log (1.01 − exp (−dist)) over pairs of different labels and of dist over pairs of equal labels; host
  operations then form the loss. The reference forms the same two sums over the whole matrix at once. On the extended
  reals addition is commutative and associative, so the tiled, point-by-point accumulation and the one whole sum agree;
  every other operation is the same function on both sides (a change of float format is the identity, 0 − d is −d, the
  label comparison is symmetric), and no law that needs finiteness is used.
  The three frames: both kernel programs run by the same proof, written once for any float instance (the two windows on
  the feature array each hold half of its share); the reference's frame is its run with the result dropped. The
  idealization rewrote no operation, so the preservation claim is trivial.
-/
import proofs.«161955_j76416058131342_1_alg».proof.Defs
import proofs.«161955_j76416058131342_1_alg».proof.Proof.Gen.Kernel
import proofs.«161955_j76416058131342_1_alg».proof.Proof.Gen.KernelIdeal
import proofs.«161955_j76416058131342_1_alg».proof.Proof.Gen.ReferenceIdeal
import proofs.«161955_j76416058131342_1_alg».proof.Proof.Gen.Pre_finite_inputs
import proofs.«161955_j76416058131342_1_alg».proof.Proof.KernelFrame
import proofs.«161955_j76416058131342_1_alg».proof.Proof.KernelIdealValue
import proofs.«161955_j76416058131342_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run_loss m ρ)

/-- The idealization rewrote nothing. -/
theorem preserves : Cert.preserves_Kernel_KernelIdeal := trivial

/-- Both idealized programs end at the loss of the argument arrays, which agree. -/
theorem algebraic : Cert.algebraic_KernelIdeal_ReferenceIdeal := by
  intro m ρ m' ρ' _ hagree
  refine ⟨fun c => fun _ => Cert.PairLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_loss m ρ, ?_⟩
  refine (θ_run Cert.ReferenceIdeal.defs _ _).mono (fun _ h c => ⟨(h c).1.trans ?_, (h c).2⟩)
    (Cert.ReferenceIdeal.RefValue.run_loss m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
